-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8192x1024 : Shape := ⟨2, ![8192, 1024]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S2x1024x1024, .f32⟩
  | .hbm, ⟨3, _⟩ => ⟨S1x1024x1024, .f32⟩
  | .hbm, ⟨4, _⟩ => ⟨S1024x1024, .f32⟩
  | .hbm, ⟨5, _⟩ => ⟨S1x1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  shapeCasts_S1024x1024_S1x1024x1024 : S1024x1024.ShapeCasts S1x1024x1024
  inb_S1x1024x1024_S1x1024x1024_0_0_0 : ∀ a, (![0, 0, 0] : Fin 3 → Nat) a + S1x1024x1024.size a ≤ S1x1024x1024.size a
  h_S1x1024x1024 : 0 < S1x1024x1024.numel
  slices_S2x1024x1024_S1x1024x1024_0_0_0 : S2x1024x1024.Slices ![0, 0, 0] S1x1024x1024
  shapeCasts_S1x1024x1024_S1024x1024 : S1x1024x1024.ShapeCasts S1024x1024
  slices_S2x1024x1024_S1x1024x1024_1_0_0 : S2x1024x1024.Slices ![1, 0, 0] S1x1024x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S1024x8192, .f32⟩
  | .hbm, ⟨13, _⟩ => ⟨S8192x8192, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BitsReg0.lean ====
/-
  The first kernel region (the reduction over the rows), as the pipeline runs it.

  The grid has 2 × 4 points, visited in row-major order, so position t is the point (t / 4, t % 4) and stages rows
  1024·t … 1024·t + 1023 of the first argument (window 0). The body keeps a 1024 × 1024 accumulator in a scratch
  buffer of its own: where the second coordinate is 0 it first fills the accumulator with zeros; then it adds the
  block's contribution to the accumulator, stores the sum back, and copies the accumulator into the staging buffer of
  output block t / 4 (window 1), which the pipeline writes back when the first coordinate is about to change. So
  what the scratch holds after position t is a recursion over the positions: from zeros at t % 4 = 0, else from what
  position t − 1 left. The region's invariant between points names those contents; everything else the body touches
  it hands back as it found it.
-/
import proofs.«167867_j90305982365717_2_alg».proof.Proof.Gen.Kernel.Launch
import proofs.«167867_j90305982365717_2_alg».proof.Proof.Gen.Kernel.Skeleton
import proofs.«167867_j90305982365717_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The row block -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block of the point at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Loads and stores through a whole buffer -/

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

section Whole
variable {Val : EltTy → Type} [∀ e, Nonempty (Val e)] {sg : RefSig} {κ : Kind} {sp : Space} {S : Shape} {e : EltTy}

/-- After a list of stores whose last one fills the whole buffer, the buffer reads as that store's value. -/
theorem read_writes_whole_last (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-- A load of the whole buffer after such stores reads that value. -/
theorem readCov_whole_last (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ _ (fun y => ⟨_, List.mem_cons.mpr (Or.inl rfl), View.mem_set_unit_zero h inb y⟩)).trans
    ((congrArg (fun X => View.ld X (Rect.unit off S.size inb)) (View.canon_cons_unit_zero h inb w L)).trans (View.ld_unit_zero h inb w))

/-- A load of the whole buffer reads its contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

/-! ## The body's triple, in its two cases -/

/-- The condition of the body's one branch: the second grid coordinate is 0. -/
abbrev cond0 (i : grid0.Coords) : Prop := (Scalar.cmpi .ne (Scalar.extui (Scalar.cmpi .eq (BitVec.ofNat 32 (i 1).val) 0#32)) 0#32) = 1#1

/-- It holds at the positions that are multiples of 4: decided over the grid's 8 points. -/
theorem hcond0 : ∀ t : Fin cfg0.N, cond0 (grid0.coords t) ↔ t.val % 4 = 0 :=
  (by decide +kernel : ∀ t : Fin grid0.N, cond0 (grid0.coords t) ↔ t.val % 4 = 0)

set_option maxHeartbeats 2000000 in
/-- Where the branch is taken: whatever the scratch held, it ends at the block's contribution added to zeros, and the
    output buffer at a copy of that. -/
theorem sound_kernel0_first (c : Dev nD) (E : Set ℕ) (i : grid0.Coords) (hc : cond0 i)
    (arg2 : Memref sig .tc .vmem S1024x1024 .f32) (harg2 : arg2.IsWhole) (arg3 : Memref sig .tc .vmem S1x1024x1024 .f32) (harg3 : arg3.IsWhole)
    (arg4 : Memref sig .tc .vmem S1024x1024 .f32) (harg4 : arg4.IsWhole)
    (x0 : Vec F S1024x1024 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay3 (k0_pay2 x0 (k0_pay1 (F := F))))
            ∗ owns (c : Thread nD τ) arg4 fullShare (k0_pay2 x0 (k0_pay1 (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d4, %f4, -, H4⟩, Hk⟩
  subst hf0
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_writes_whole_last _ _ zeros3, readCov_whole_last _ zeros2, readAt_whole _ _ zeros2, readCov_whole_last _ zeros2]
  iexists _; isplitr
  swap; · iexact H4
  ipureintro
  sl_unfold_run_names
  rw [read_writes_whole_last _ _ zeros2, readAt_whole _ _ zeros2, readCov_whole_last _ zeros2]

set_option maxHeartbeats 2000000 in
/-- Where it is not: the scratch, found at a0, ends at the block's contribution added to a0, and the output buffer
    at a copy of that. -/
theorem sound_kernel0_next (c : Dev nD) (E : Set ℕ) (i : grid0.Coords) (hc : ¬ cond0 i)
    (arg2 : Memref sig .tc .vmem S1024x1024 .f32) (harg2 : arg2.IsWhole) (arg3 : Memref sig .tc .vmem S1x1024x1024 .f32) (harg3 : arg3.IsWhole)
    (arg4 : Memref sig .tc .vmem S1024x1024 .f32) (harg4 : arg4.IsWhole)
    (x0 a0 : Vec F S1024x1024 .f32) (K : PUnit → sProp 𝕄) :
    iprop(owns (c : Thread nD τ) arg2 fullShare x0 ∗ (∃ d, owns (c : Thread nD τ) arg3 fullShare d) ∗ owns (c : Thread nD τ) arg4 fullShare a0
        ∗ (iprop(owns (c : Thread nD τ) arg2 fullShare x0 ∗ owns (c : Thread nD τ) arg3 fullShare (k0_pay3 (k0_pay2 x0 a0))
            ∗ owns (c : Thread nD τ) arg4 fullShare (k0_pay2 x0 a0)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%f4, %hf4, H4⟩, Hk⟩
  subst hf0; subst hf4
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_writes_whole_last _ _ zeros3, readCov_whole_last _ zeros2, readAt_whole _ _ zeros2, readAt_whole _ _ zeros2]
  iexists _; isplitr
  swap; · iexact H4
  ipureintro
  sl_unfold_run_names
  rw [read_writes_whole_last _ _ zeros2, readAt_whole _ _ zeros2, readAt_whole _ _ zeros2]

/-! ## What the scratch holds after each position -/

/-- THE ACCUMULATION: the scratch after the body at position n — the block's contribution added to zeros where
    n is a multiple of 4, else to what position n − 1 left. -/
def accAt (c : Dev nD) : (n : ℕ) → n < cfg0.N → Vec F S1024x1024 .f32
  | 0, hn => k0_pay2 (iblk0 V c 0 ⟨0, hn⟩) (k0_pay1 (F := F))
  | n + 1, hn =>
    if (n + 1) % 4 = 0 then k0_pay2 (iblk0 V c 0 ⟨n + 1, hn⟩) (k0_pay1 (F := F))
    else k0_pay2 (iblk0 V c 0 ⟨n + 1, hn⟩) (accAt c n (Nat.lt_of_succ_lt hn))

theorem accAt_first (c : Dev nD) (t : Fin cfg0.N) (h : t.val % 4 = 0) :
    accAt V c t.val t.isLt = k0_pay2 (iblk0 V c 0 t) (k0_pay1 (F := F)) := by
  obtain ⟨n, hn⟩ := t
  cases n with
  | zero => rfl
  | succ n => exact if_pos h

theorem accAt_next (c : Dev nD) (t : Fin cfg0.N) (h : ¬ t.val % 4 = 0) :
    accAt V c t.val t.isLt = k0_pay2 (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref: a whole scoped buffer of the kernel's own. -/
abbrev scM0 : Memref sig .tc .vmem S1024x1024 .f32 := Memref.whole cc0_scratch0

/-- The other scoped buffers the region does not stage (the second region's staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is handed at its first point — every scoped buffer it does not stage at some contents, and the
    generator register — with the scratch singled out as a memref. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; rfl

/-- The invariant before position n: at the first point what the region is handed; afterwards the same with the
    scratch at what position n − 1 left in it. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ rest0 (F := F) c) ∗ (∃ r, prngReg c r)) := by
  cases n with
  | zero => exact absurd rfl hz
  | succ n => rfl

/-! ## The pipeline's proof data -/

/-- The proof data of this pipeline on core c: the arrays as the region finds them; after the body at point t the
    row block's buffer at its block and the output's at a copy of the accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 2000000 in
/-- The body at any point. The row block's buffer holds its block; the closed form of the branch condition says
    which case the point is in; the invariant hands the body the scratch — at anything at the first point, else at
    what the point before left — and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ, after0_0, after0_1]
  by_cases h0 : t.val % 4 = 0
  · rw [accAt_first V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩⟩
      iapply (sound_kernel0_first c Set.univ (grid0.coords t) ((hcond0 t).mpr h0) _ _ _ _ _ _ (iblk0 V c 0 t) _)
      isplitl [H0]; · iexact H0
      isplitl [H1]; · iexists _; iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
    · rw [PhiS_castSucc V c t, PhiS_pos V c _ _ hz]
      iintro ⟨⟨⟨HS, Hr⟩, Hg⟩, Ho, ⟨%d0, H0⟩, ⟨%d1, H1⟩⟩
      iapply (sound_kernel0_first c Set.univ (grid0.coords t) ((hcond0 t).mpr h0) _ _ _ _ _ _ (iblk0 V c 0 t) _)
      isplitl [H0]; · iexact H0
      isplitl [H1]; · iexists _; iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
  · rw [accAt_next V c t h0]
    have hz : t.val ≠ 0 := fun e => h0 (by rw [e])
    rw [PhiS_castSucc V c t, PhiS_pos V c _ _ hz]
    iintro ⟨⟨⟨HS, Hr⟩, Hg⟩, Ho, ⟨%d0, H0⟩, ⟨%d1, H1⟩⟩
    iapply (sound_kernel0_next c Set.univ (grid0.coords t) (fun h => h0 ((hcond0 t).mp h)) _ _ _ _ _ _ (iblk0 V c 0 t) _ _)
    isplitl [H0]; · iexact H0
    isplitl [H1]; · iexists _; iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    iexact H1

/-- The obligation the pipeline's rule asks for, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the region was handed: the scratch's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨⟨HS, Hr⟩, Hg⟩
  isplitl [HS Hr]
  · isplitl [HS]; · iexists _; iexact HS
    iexact Hr
  iexact Hg

end Cert.Kernel.Hand

end
-- ==== Proof.BitsReg1.lean ====
/-
  The second kernel region (the projection onto the rows), as the pipeline runs it.

  The grid has 16 points; point t stages rows 512·t … 512·t + 511 of the first argument (window 0), the whole
  1024 × 1024 matrix computed on the host (window 1, fetched once), and writes back one 512 × 1024 block of the
  result (window 2). The body loads the two input blocks, computes one value from them and stores it over the
  whole output block; it keeps nothing between points. Stated here, at any contents V of the buffers when the
  region is entered: what each staging buffer holds before and after the body at every point, the body's triple,
  and the obligation the pipeline's rule asks for.
-/
import proofs.«167867_j90305982365717_2_alg».proof.Proof.Gen.Kernel.Launch
import proofs.«167867_j90305982365717_2_alg».proof.Proof.Gen.Kernel.Skeleton
import proofs.«167867_j90305982365717_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block of the point, whether or not it was fetched there: an unfetched
    input has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the matrix, which is fetched at the first point only and stays in its one buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_0 : Rect S512x1024 := Rect.unit (s := S512x1024) ![0, 0] S512x1024.size inb_S512x1024_S512x1024_0_0
abbrev r1_1 : Rect S1024x1024 := Rect.unit (s := S1024x1024) ![0, 0] S1024x1024.size inb_S1024x1024_S1024x1024_0_0

/-- What the body leaves in the output block's buffer: its one store, of the value computed from the two loads. -/
def out1_2 (x0 : Vec F S512x1024 .f32) (x1 : Vec F S1024x1024 .f32) : Vec F S512x1024 .f32 :=
  View.canon [⟨r1_0, k1_pay1 (View.ld x0 r1_0) (View.ld x1 r1_1)⟩]

/-- That store covers the buffer. -/
theorem cover1_2 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- On whole staging buffers, the inputs' at contents x0 and x1 and the output's at anything, the body runs to the
    continuation with the inputs' as they were and the output's at the stored value. -/
theorem sound_kernel1 (c : Dev nD) (E : Set ℕ) (i : grid1.Coords)
    (arg1 : Memref sig .tc .vmem S512x1024 .f32) (harg1 : arg1.IsWhole) (arg2 : Memref sig .tc .vmem S1024x1024 .f32) (harg2 : arg2.IsWhole)
    (arg3 : Memref sig .tc .vmem S512x1024 .f32) (harg3 : arg3.IsWhole)
    (x0 : Vec F S512x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__project_kernel i arg1 harg1 arg2 harg2 arg3 harg3) K := by
  simp only [cc1__project_kernel_eq_skeleton]; unfold cc1__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core c: the arrays as the region finds them; after the body at point t each
    input's buffer at its block and the output's at the stored value of the two blocks; between points only the
    scoped buffers the pipeline does not stage and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline's rule asks for, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program's run: the first kernel region, six host operations (two slices and reshapes of its result,
  their sum, the product with the weight matrix), the second kernel region.

  Between these three items core c's unscoped buffers hold contents that are a fold from the launch memory: a
  region leaves every buffer as it found it except its windows' arrays, which end at what its write-backs leave; a
  host stretch leaves what its operations compute. Each region is entered from "every unscoped buffer at the
  boundary's contents, the generator register at some state, nothing owed" and left at the same at the next
  boundary; its own scoped buffers enter its invariant and come back. The run ends with every unscoped buffer at the
  last boundary's contents: the two arguments as launched, the result array at what the second region's write-backs
  leave.
-/
import proofs.«167867_j90305982365717_2_alg».proof.Proof.BitsReg0
import proofs.«167867_j90305982365717_2_alg».proof.Proof.BitsReg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev B0 : Dev nD → Valuation τ sig (Elt F) := fun c b => m (c, b)
/-- The same read at the TensorCore's references. -/
abbrev R0 : (c : Dev nD) → (b : Ref sig .tc) → Buf (Elt F) ((c : Thread nD τ).loc b) := fun c b => B0 m c b
/-- At the first region's exit: its arrays at what the pipeline leaves, every other buffer as entered. -/
def B1 (c : Dev nD) : Valuation τ sig (Elt F) :=
  Pipeline.withArrays spec0 c (B0 m c) fun w => (dat0 (R0 m) c).arrAt w cfg0.N
theorem B1_arr (c : Dev nD) (w : Fin cfg0.W) :
    B1 m c (Proc.devRef .tc (Pipeline.arrRef spec0 w)) = (dat0 (R0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev R1 : (c : Dev nD) → (b : Ref sig .tc) → Buf (Elt F) ((c : Thread nD τ).loc b) := fun c b => B1 m c b
theorem hF0 (c : Dev nD) (w : Fin cfg0.W) : (dat0 (R0 m) c).arrAt w cfg0.N = R1 m c (Pipeline.arrRef spec0 w) :=
  (B1_arr m c w).symm
theorem hrest0 (c : Dev nD) : ∀ b, b ∉ Finset.univ.image (Pipeline.arrRef spec0) → R1 m c b = R0 m c b :=
  fun b hb => B1_of_ne m c b fun w e => hb (Finset.mem_image.mpr ⟨w, Finset.mem_univ _, e⟩)

/-- After the six host operations (the second region's entry). -/
abbrev B2 : Dev nD → Valuation τ sig (Elt F) := fun c => StableHlo.after hostOps1 (B1 m c)
abbrev R2 : (c : Dev nD) → (b : Ref sig .tc) → Buf (Elt F) ((c : Thread nD τ).loc b) := fun c b => B2 m c b
/-- At the second region's exit. -/
def B3 (c : Dev nD) : Valuation τ sig (Elt F) :=
  Pipeline.withArrays spec1 c (B2 m c) fun w => (dat1 (R2 m) c).arrAt w cfg1.N
theorem B3_arr (c : Dev nD) (w : Fin cfg1.W) :
    B3 m c (Proc.devRef .tc (Pipeline.arrRef spec1 w)) = (dat1 (R2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev R3 : (c : Dev nD) → (b : Ref sig .tc) → Buf (Elt F) ((c : Thread nD τ).loc b) := fun c b => B3 m c b
theorem hF1 (c : Dev nD) (w : Fin cfg1.W) : (dat1 (R2 m) c).arrAt w cfg1.N = R3 m c (Pipeline.arrRef spec1 w) :=
  (B3_arr m c w).symm
theorem hrest1 (c : Dev nD) : ∀ b, b ∉ Finset.univ.image (Pipeline.arrRef spec1) → R3 m c b = R2 m c b :=
  fun b hb => B3_of_ne m c b fun w e => hb (Finset.mem_image.mpr ⟨w, Finset.mem_univ _, e⟩)

/-! ## No item writes an argument -/

/-- None of the six host operations writes b, for b one of the two arguments. -/
theorem B2_of_arg (c : Dev nD) (b : Ref sig .tc) (hb : b = main_arg0 ∨ b = main_arg1) :
    B2 m c (Proc.devRef .tc b) = B1 m c (Proc.devRef .tc b) :=
  StableHlo.after_of_forall_not_mem (b := Proc.devRef .tc b) _ _ (List.forall_iff_forall_mem.mp (by
    rcases hb with rfl | rfl <;>
    · simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first argument, which both regions read through an input window, ends as launched. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (R2 m) c).arrAt_in 0 rfl _).trans (A_eq1 (R2 m) c 0))
    _ = B1 m c (Proc.devRef .tc main_arg0) := B2_of_arg m c main_arg0 (.inl rfl)
    _ = B0 m c (Proc.devRef .tc main_arg0) := (B1_arr m c 0).trans (((dat0 (R0 m) c).arrAt_in 0 rfl _).trans (A_eq0 (R0 m) c 0))
    _ = m ((c : Thread nD τ).loc main_arg0) := rfl

/-- The second argument, which no region stages, ends as launched. -/
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_arg m c main_arg1 (.inr rfl)
    _ = B0 m c (Proc.devRef .tc main_arg1) := B1_of_ne m c main_arg1 (by decide)
    _ = m ((c : Thread nD τ).loc main_arg1) := rfl

/-- The result array ends at what the second region's write-backs leave. -/
theorem B3_main_v7 (c : Dev nD) : B3 m c (Proc.devRef .tc main_v7) = (dat1 (R2 m) c).arrAt 2 cfg1.N := B3_arr m c 2

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R0 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem hostOps1_noalloc : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first region: entered from every unscoped buffer at the launch contents, left at the first boundary's. Its
    arrays are split out of the unscoped buffers and put back at their exit contents; its scoped buffers and the
    generator register enter the invariant (the scratch at anything) and come back (its contents forgotten). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R0 m) c).loose
  hwaits := Pipeline.hwaits_of_owed_zero _ _ _ _ L lv 0 fun _ _ => rfl
  pre c := iprop(StableHlo.held (c : Thread nD τ) (Pipeline.ucRefs τ sig) (B0 m c) ∗ Rd c)
  post c := iprop(StableHlo.held (c : Thread nD τ) (Pipeline.ucRefs τ sig) (B1 m c) ∗ Rd c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (R0 m) c).trans hgive
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R0 m c) (R1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the second boundary's contents, left at the last. It keeps nothing between
    points: its invariant is its scoped buffers and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (B2 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm (pdats m) () defs₀ 𝒱₀ L lv) :=
  [ .region (reg0 m),
    .host (hseg hostOps1 hostOps1_sub hostOps1_noalloc (B1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer of core c holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rd c)) (Tₙ := Tn m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: the program runs to the end, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

/-- The run with the result array named: what the second region's write-backs leave, from the contents its arrays
    had when it was entered. -/
theorem run_result : θ_run defs (onTc (τ := τ) (main (F := F))) ⟨m, fun _ => 0, ρ⟩ (fun r => ∀ c : Dev nD,
      r.2.mem ((c.tc : Thread nD τ).loc main_v7) = (dat1 (R2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (B3_main_v7 m c),
     (h c _ (mem_uc main_arg0 (by decide))).trans (B3_main_arg0 m c),
     (h c _ (mem_uc main_arg1 (by decide))).trans (B3_main_arg1 m c)⟩) (run_all m ρ)

end Cert.Kernel.Hand

end
-- ==== Proof.IdealReg0.lean ====
/-
  The first kernel region (the reduction over the rows), as the pipeline runs it.

  The grid has 2 × 4 points, visited in row-major order, so position t is the point (t / 4, t % 4) and stages rows
  1024·t … 1024·t + 1023 of the first argument (window 0). The body keeps a 1024 × 1024 accumulator in a scratch
  buffer of its own: where the second coordinate is 0 it first fills the accumulator with zeros; then it adds the
  block's contribution to the accumulator, stores the sum back, and copies the accumulator into the staging buffer of
  output block t / 4 (window 1), which the pipeline writes back when the first coordinate is about to change. So
  what the scratch holds after position t is a recursion over the positions: from zeros at t % 4 = 0, else from what
  position t − 1 left. The region's invariant between points names those contents; everything else the body touches
  it hands back as it found it.
-/
import proofs.«167867_j90305982365717_2_alg».proof.Proof.Gen.KernelIdeal.Launch
import proofs.«167867_j90305982365717_2_alg».proof.Proof.Gen.KernelIdeal.Skeleton
import proofs.«167867_j90305982365717_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The row block -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block of the point at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Loads and stores through a whole buffer -/

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

section Whole
variable {Val : EltTy → Type} [∀ e, Nonempty (Val e)] {sg : RefSig} {κ : Kind} {sp : Space} {S : Shape} {e : EltTy}

/-- After a list of stores whose last one fills the whole buffer, the buffer reads as that store's value. -/
theorem read_writes_whole_last (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-- A load of the whole buffer after such stores reads that value. -/
theorem readCov_whole_last (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w :=
  (View.readCov_eq_canon_ld v _ _ (fun y => ⟨_, List.mem_cons.mpr (Or.inl rfl), View.mem_set_unit_zero h inb y⟩)).trans
    ((congrArg (fun X => View.ld X (Rect.unit off S.size inb)) (View.canon_cons_unit_zero h inb w L)).trans (View.ld_unit_zero h inb w))

/-- A load of the whole buffer reads its contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

/-! ## The body's triple, in its two cases -/

/-- The condition of the body's one branch: the second grid coordinate is 0. -/
abbrev cond0 (i : grid0.Coords) : Prop := (Scalar.cmpi .ne (Scalar.extui (Scalar.cmpi .eq (BitVec.ofNat 32 (i 1).val) 0#32)) 0#32) = 1#1

/-- It holds at the positions that are multiples of 4: decided over the grid's 8 points. -/
theorem hcond0 : ∀ t : Fin cfg0.N, cond0 (grid0.coords t) ↔ t.val % 4 = 0 :=
  (by decide +kernel : ∀ t : Fin grid0.N, cond0 (grid0.coords t) ↔ t.val % 4 = 0)

set_option maxHeartbeats 2000000 in
/-- Where the branch is taken: whatever the scratch held, it ends at the block's contribution added to zeros, and the
    output buffer at a copy of that. -/
theorem sound_kernel0_first (c : Dev nD) (E : Set ℕ) (i : grid0.Coords) (hc : cond0 i)
    (arg2 : Memref sig .tc .vmem S1024x1024 .f32) (harg2 : arg2.IsWhole) (arg3 : Memref sig .tc .vmem S1x1024x1024 .f32) (harg3 : arg3.IsWhole)
    (arg4 : Memref sig .tc .vmem S1024x1024 .f32) (harg4 : arg4.IsWhole)
    (x0 : Vec F S1024x1024 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay3 (k0_pay2 x0 (k0_pay1 (F := F))))
            ∗ owns (c : Thread nD τ) arg4 fullShare (k0_pay2 x0 (k0_pay1 (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d4, %f4, -, H4⟩, Hk⟩
  subst hf0
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_writes_whole_last _ _ zeros3, readCov_whole_last _ zeros2, readAt_whole _ _ zeros2, readCov_whole_last _ zeros2]
  iexists _; isplitr
  swap; · iexact H4
  ipureintro
  sl_unfold_run_names
  rw [read_writes_whole_last _ _ zeros2, readAt_whole _ _ zeros2, readCov_whole_last _ zeros2]

set_option maxHeartbeats 2000000 in
/-- Where it is not: the scratch, found at a0, ends at the block's contribution added to a0, and the output buffer
    at a copy of that. -/
theorem sound_kernel0_next (c : Dev nD) (E : Set ℕ) (i : grid0.Coords) (hc : ¬ cond0 i)
    (arg2 : Memref sig .tc .vmem S1024x1024 .f32) (harg2 : arg2.IsWhole) (arg3 : Memref sig .tc .vmem S1x1024x1024 .f32) (harg3 : arg3.IsWhole)
    (arg4 : Memref sig .tc .vmem S1024x1024 .f32) (harg4 : arg4.IsWhole)
    (x0 a0 : Vec F S1024x1024 .f32) (K : PUnit → sProp 𝕄) :
    iprop(owns (c : Thread nD τ) arg2 fullShare x0 ∗ (∃ d, owns (c : Thread nD τ) arg3 fullShare d) ∗ owns (c : Thread nD τ) arg4 fullShare a0
        ∗ (iprop(owns (c : Thread nD τ) arg2 fullShare x0 ∗ owns (c : Thread nD τ) arg3 fullShare (k0_pay3 (k0_pay2 x0 a0))
            ∗ owns (c : Thread nD τ) arg4 fullShare (k0_pay2 x0 a0)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%f4, %hf4, H4⟩, Hk⟩
  subst hf0; subst hf4
  sl_exec (disch := first | exact hc)
  sl_step
  iapply Hk
  isplitl [H0]
  · iexists f0; isplitr; · ipureintro; rfl
    iexact H0
  isplitl [H1]
  · iexists _; isplitr
    swap; · iexact H1
    ipureintro
    sl_unfold_run_names
    rw [read_writes_whole_last _ _ zeros3, readCov_whole_last _ zeros2, readAt_whole _ _ zeros2, readAt_whole _ _ zeros2]
  iexists _; isplitr
  swap; · iexact H4
  ipureintro
  sl_unfold_run_names
  rw [read_writes_whole_last _ _ zeros2, readAt_whole _ _ zeros2, readAt_whole _ _ zeros2]

/-! ## What the scratch holds after each position -/

/-- THE ACCUMULATION: the scratch after the body at position n — the block's contribution added to zeros where
    n is a multiple of 4, else to what position n − 1 left. -/
def accAt (c : Dev nD) : (n : ℕ) → n < cfg0.N → Vec F S1024x1024 .f32
  | 0, hn => k0_pay2 (iblk0 V c 0 ⟨0, hn⟩) (k0_pay1 (F := F))
  | n + 1, hn =>
    if (n + 1) % 4 = 0 then k0_pay2 (iblk0 V c 0 ⟨n + 1, hn⟩) (k0_pay1 (F := F))
    else k0_pay2 (iblk0 V c 0 ⟨n + 1, hn⟩) (accAt c n (Nat.lt_of_succ_lt hn))

theorem accAt_first (c : Dev nD) (t : Fin cfg0.N) (h : t.val % 4 = 0) :
    accAt V c t.val t.isLt = k0_pay2 (iblk0 V c 0 t) (k0_pay1 (F := F)) := by
  obtain ⟨n, hn⟩ := t
  cases n with
  | zero => rfl
  | succ n => exact if_pos h

theorem accAt_next (c : Dev nD) (t : Fin cfg0.N) (h : ¬ t.val % 4 = 0) :
    accAt V c t.val t.isLt = k0_pay2 (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch as a memref: a whole scoped buffer of the kernel's own. -/
abbrev scM0 : Memref sig .tc .vmem S1024x1024 .f32 := Memref.whole cc0_scratch0

/-- The other scoped buffers the region does not stage (the second region's staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is handed at its first point — every scoped buffer it does not stage at some contents, and the
    generator register — with the scratch singled out as a memref. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; rfl

/-- The invariant before position n: at the first point what the region is handed; afterwards the same with the
    scratch at what position n − 1 left in it. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ rest0 (F := F) c) ∗ (∃ r, prngReg c r)) := by
  cases n with
  | zero => exact absurd rfl hz
  | succ n => rfl

/-! ## The pipeline's proof data -/

/-- The proof data of this pipeline on core c: the arrays as the region finds them; after the body at point t the
    row block's buffer at its block and the output's at a copy of the accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 2000000 in
/-- The body at any point. The row block's buffer holds its block; the closed form of the branch condition says
    which case the point is in; the invariant hands the body the scratch — at anything at the first point, else at
    what the point before left — and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ, after0_0, after0_1]
  by_cases h0 : t.val % 4 = 0
  · rw [accAt_first V c t h0]
    by_cases hz : t.val = 0
    · rw [PhiS_castSucc V c t, PhiS_zero V c _ _ hz, PhiA0_eq]
      iintro ⟨⟨⟨HS, Hr⟩, Hg⟩, Ho, ⟨%d0, H0⟩, ⟨%d1, H1⟩⟩
      iapply (sound_kernel0_first c Set.univ (grid0.coords t) ((hcond0 t).mpr h0) _ _ _ _ _ _ (iblk0 V c 0 t) _)
      isplitl [H0]; · iexact H0
      isplitl [H1]; · iexists _; iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
    · rw [PhiS_castSucc V c t, PhiS_pos V c _ _ hz]
      iintro ⟨⟨⟨HS, Hr⟩, Hg⟩, Ho, ⟨%d0, H0⟩, ⟨%d1, H1⟩⟩
      iapply (sound_kernel0_first c Set.univ (grid0.coords t) ((hcond0 t).mpr h0) _ _ _ _ _ _ (iblk0 V c 0 t) _)
      isplitl [H0]; · iexact H0
      isplitl [H1]; · iexists _; iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexact H1
  · rw [accAt_next V c t h0]
    have hz : t.val ≠ 0 := fun e => h0 (by rw [e])
    rw [PhiS_castSucc V c t, PhiS_pos V c _ _ hz]
    iintro ⟨⟨⟨HS, Hr⟩, Hg⟩, Ho, ⟨%d0, H0⟩, ⟨%d1, H1⟩⟩
    iapply (sound_kernel0_next c Set.univ (grid0.coords t) (fun h => h0 ((hcond0 t).mp h)) _ _ _ _ _ _ (iblk0 V c 0 t) _ _)
    isplitl [H0]; · iexact H0
    isplitl [H1]; · iexists _; iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    iexact H1

/-- The obligation the pipeline's rule asks for, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the region was handed: the scratch's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨⟨HS, Hr⟩, Hg⟩
  isplitl [HS Hr]
  · isplitl [HS]; · iexists _; iexact HS
    iexact Hr
  iexact Hg

end Cert.KernelIdeal.Hand

end
-- ==== Proof.IdealReg1.lean ====
/-
  The second kernel region (the projection onto the rows), as the pipeline runs it.

  The grid has 16 points; point t stages rows 512·t … 512·t + 511 of the first argument (window 0), the whole
  1024 × 1024 matrix computed on the host (window 1, fetched once), and writes back one 512 × 1024 block of the
  result (window 2). The body loads the two input blocks, computes one value from them and stores it over the
  whole output block; it keeps nothing between points. Stated here, at any contents V of the buffers when the
  region is entered: what each staging buffer holds before and after the body at every point, the body's triple,
  and the obligation the pipeline's rule asks for.
-/
import proofs.«167867_j90305982365717_2_alg».proof.Proof.Gen.KernelIdeal.Launch
import proofs.«167867_j90305982365717_2_alg».proof.Proof.Gen.KernelIdeal.Skeleton
import proofs.«167867_j90305982365717_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the block of the point, whether or not it was fetched there: an unfetched
    input has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the matrix, which is fetched at the first point only and stays in its one buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_0 : Rect S512x1024 := Rect.unit (s := S512x1024) ![0, 0] S512x1024.size inb_S512x1024_S512x1024_0_0
abbrev r1_1 : Rect S1024x1024 := Rect.unit (s := S1024x1024) ![0, 0] S1024x1024.size inb_S1024x1024_S1024x1024_0_0

/-- What the body leaves in the output block's buffer: its one store, of the value computed from the two loads. -/
def out1_2 (x0 : Vec F S512x1024 .f32) (x1 : Vec F S1024x1024 .f32) : Vec F S512x1024 .f32 :=
  View.canon [⟨r1_0, k1_pay1 (View.ld x0 r1_0) (View.ld x1 r1_1)⟩]

/-- That store covers the buffer. -/
theorem cover1_2 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- On whole staging buffers, the inputs' at contents x0 and x1 and the output's at anything, the body runs to the
    continuation with the inputs' as they were and the output's at the stored value. -/
theorem sound_kernel1 (c : Dev nD) (E : Set ℕ) (i : grid1.Coords)
    (arg1 : Memref sig .tc .vmem S512x1024 .f32) (harg1 : arg1.IsWhole) (arg2 : Memref sig .tc .vmem S1024x1024 .f32) (harg2 : arg2.IsWhole)
    (arg3 : Memref sig .tc .vmem S512x1024 .f32) (harg3 : arg3.IsWhole)
    (x0 : Vec F S512x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__project_kernel i arg1 harg1 arg2 harg2 arg3 harg3) K := by
  simp only [cc1__project_kernel_eq_skeleton]; unfold cc1__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core c: the arrays as the region finds them; after the body at point t each
    input's buffer at its block and the output's at the stored value of the two blocks; between points only the
    scoped buffers the pipeline does not stage and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline's rule asks for, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program's run: the first kernel region, six host operations (two slices and reshapes of its result,
  their sum, the product with the weight matrix), the second kernel region.

  Between these three items core c's unscoped buffers hold contents that are a fold from the launch memory: a
  region leaves every buffer as it found it except its windows' arrays, which end at what its write-backs leave; a
  host stretch leaves what its operations compute. Each region is entered from "every unscoped buffer at the
  boundary's contents, the generator register at some state, nothing owed" and left at the same at the next
  boundary; its own scoped buffers enter its invariant and come back. The run ends with every unscoped buffer at the
  last boundary's contents: the two arguments as launched, the result array at what the second region's write-backs
  leave.
-/
import proofs.«167867_j90305982365717_2_alg».proof.Proof.IdealReg0
import proofs.«167867_j90305982365717_2_alg».proof.Proof.IdealReg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev B0 : Dev nD → Valuation τ sig (Elt F) := fun c b => m (c, b)
/-- The same read at the TensorCore's references. -/
abbrev R0 : (c : Dev nD) → (b : Ref sig .tc) → Buf (Elt F) ((c : Thread nD τ).loc b) := fun c b => B0 m c b
/-- At the first region's exit: its arrays at what the pipeline leaves, every other buffer as entered. -/
def B1 (c : Dev nD) : Valuation τ sig (Elt F) :=
  Pipeline.withArrays spec0 c (B0 m c) fun w => (dat0 (R0 m) c).arrAt w cfg0.N
theorem B1_arr (c : Dev nD) (w : Fin cfg0.W) :
    B1 m c (Proc.devRef .tc (Pipeline.arrRef spec0 w)) = (dat0 (R0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev R1 : (c : Dev nD) → (b : Ref sig .tc) → Buf (Elt F) ((c : Thread nD τ).loc b) := fun c b => B1 m c b
theorem hF0 (c : Dev nD) (w : Fin cfg0.W) : (dat0 (R0 m) c).arrAt w cfg0.N = R1 m c (Pipeline.arrRef spec0 w) :=
  (B1_arr m c w).symm
theorem hrest0 (c : Dev nD) : ∀ b, b ∉ Finset.univ.image (Pipeline.arrRef spec0) → R1 m c b = R0 m c b :=
  fun b hb => B1_of_ne m c b fun w e => hb (Finset.mem_image.mpr ⟨w, Finset.mem_univ _, e⟩)

/-- After the six host operations (the second region's entry). -/
abbrev B2 : Dev nD → Valuation τ sig (Elt F) := fun c => StableHlo.after hostOps1 (B1 m c)
abbrev R2 : (c : Dev nD) → (b : Ref sig .tc) → Buf (Elt F) ((c : Thread nD τ).loc b) := fun c b => B2 m c b
/-- At the second region's exit. -/
def B3 (c : Dev nD) : Valuation τ sig (Elt F) :=
  Pipeline.withArrays spec1 c (B2 m c) fun w => (dat1 (R2 m) c).arrAt w cfg1.N
theorem B3_arr (c : Dev nD) (w : Fin cfg1.W) :
    B3 m c (Proc.devRef .tc (Pipeline.arrRef spec1 w)) = (dat1 (R2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev R3 : (c : Dev nD) → (b : Ref sig .tc) → Buf (Elt F) ((c : Thread nD τ).loc b) := fun c b => B3 m c b
theorem hF1 (c : Dev nD) (w : Fin cfg1.W) : (dat1 (R2 m) c).arrAt w cfg1.N = R3 m c (Pipeline.arrRef spec1 w) :=
  (B3_arr m c w).symm
theorem hrest1 (c : Dev nD) : ∀ b, b ∉ Finset.univ.image (Pipeline.arrRef spec1) → R3 m c b = R2 m c b :=
  fun b hb => B3_of_ne m c b fun w e => hb (Finset.mem_image.mpr ⟨w, Finset.mem_univ _, e⟩)

/-! ## No item writes an argument -/

/-- None of the six host operations writes b, for b one of the two arguments. -/
theorem B2_of_arg (c : Dev nD) (b : Ref sig .tc) (hb : b = main_arg0 ∨ b = main_arg1) :
    B2 m c (Proc.devRef .tc b) = B1 m c (Proc.devRef .tc b) :=
  StableHlo.after_of_forall_not_mem (b := Proc.devRef .tc b) _ _ (List.forall_iff_forall_mem.mp (by
    rcases hb with rfl | rfl <;>
    · simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first argument, which both regions read through an input window, ends as launched. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (R2 m) c).arrAt_in 0 rfl _).trans (A_eq1 (R2 m) c 0))
    _ = B1 m c (Proc.devRef .tc main_arg0) := B2_of_arg m c main_arg0 (.inl rfl)
    _ = B0 m c (Proc.devRef .tc main_arg0) := (B1_arr m c 0).trans (((dat0 (R0 m) c).arrAt_in 0 rfl _).trans (A_eq0 (R0 m) c 0))
    _ = m ((c : Thread nD τ).loc main_arg0) := rfl

/-- The second argument, which no region stages, ends as launched. -/
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_arg m c main_arg1 (.inr rfl)
    _ = B0 m c (Proc.devRef .tc main_arg1) := B1_of_ne m c main_arg1 (by decide)
    _ = m ((c : Thread nD τ).loc main_arg1) := rfl

/-- The result array ends at what the second region's write-backs leave. -/
theorem B3_main_v7 (c : Dev nD) : B3 m c (Proc.devRef .tc main_v7) = (dat1 (R2 m) c).arrAt 2 cfg1.N := B3_arr m c 2

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R0 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem hostOps1_noalloc : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first region: entered from every unscoped buffer at the launch contents, left at the first boundary's. Its
    arrays are split out of the unscoped buffers and put back at their exit contents; its scoped buffers and the
    generator register enter the invariant (the scratch at anything) and come back (its contents forgotten). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R0 m) c).loose
  hwaits := Pipeline.hwaits_of_owed_zero _ _ _ _ L lv 0 fun _ _ => rfl
  pre c := iprop(StableHlo.held (c : Thread nD τ) (Pipeline.ucRefs τ sig) (B0 m c) ∗ Rd c)
  post c := iprop(StableHlo.held (c : Thread nD τ) (Pipeline.ucRefs τ sig) (B1 m c) ∗ Rd c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (R0 m) c).trans hgive
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R0 m c) (R1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the second boundary's contents, left at the last. It keeps nothing between
    points: its invariant is its scoped buffers and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (B2 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R2 m c) (R3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three items, and the run -/

abbrev segs : List (Pipeline.Seg (pcfgs (F := F)) adm (pdats m) () defs₀ 𝒱₀ L lv) :=
  [ .region (reg0 m),
    .host (hseg hostOps1 hostOps1_sub hostOps1_noalloc (B1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final state each unscoped buffer of core c holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rd c)) (Tₙ := Tn m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: the program runs to the end, faults nowhere, and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

/-- The run with the result array named: what the second region's write-backs leave, from the contents its arrays
    had when it was entered. -/
theorem run_result : θ_run defs (onTc (τ := τ) (main (F := F))) ⟨m, fun _ => 0, ρ⟩ (fun r => ∀ c : Dev nD,
      r.2.mem ((c.tc : Thread nD τ).loc main_v7) = (dat1 (R2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (B3_main_v7 m c),
     (h c _ (mem_uc main_arg0 (by decide))).trans (B3_main_arg0 m c),
     (h c _ (mem_uc main_arg1 (by decide))).trans (B3_main_arg1 m c)⟩) (run_all m ρ)

end Cert.KernelIdeal.Hand

end
-- ==== Proof.LibGcnSum.lean ====
/-
  Sums of real-valued extended reals: the distributive law a graph convolution's two scalings need, closure of
  "is a real number" under the operations of a dense layer (sums, products, maxima, matrix products, scatter-adds),
  and the node degree with its reciprocal square root.
-/
import Idealize.ShloMosaic.PureOps.Ideal
import Idealize.ShloMosaic.Lib.ValueIdx

noncomputable section

open scoped BigOperators

namespace GcnLib

open Idealize.ShloMosaic

/-- An extended real that is a real number. -/
abbrev IsReal (x : EReal) : Prop := ∃ r : ℝ, x = (r : EReal)

/-! ## Closure -/

/-- A real number, read as an extended real, is real-valued. -/
theorem isReal_coe (r : ℝ) : IsReal (r : EReal) := ⟨r, rfl⟩
/-- Zero is real-valued. -/
theorem isReal_zero : IsReal (0 : EReal) := ⟨0, rfl⟩
/-- One is real-valued. -/
theorem isReal_one : IsReal (1 : EReal) := ⟨1, rfl⟩
/-- A natural number is real-valued. -/
theorem isReal_natCast (n : ℕ) : IsReal ((n : ℕ) : EReal) := ⟨(n : ℝ), by norm_cast⟩
/-- The sum of two real-valued extended reals is real-valued. -/
theorem isReal_add {x y : EReal} (hx : IsReal x) (hy : IsReal y) : IsReal (x + y) := by
  obtain ⟨a, rfl⟩ := hx; obtain ⟨b, rfl⟩ := hy; exact ⟨a + b, (EReal.coe_add a b).symm⟩
/-- The product of two real-valued extended reals is real-valued. -/
theorem isReal_mul {x y : EReal} (hx : IsReal x) (hy : IsReal y) : IsReal (x * y) := by
  obtain ⟨a, rfl⟩ := hx; obtain ⟨b, rfl⟩ := hy; exact ⟨a * b, (EReal.coe_mul a b).symm⟩
/-- The negative of a real-valued extended real is real-valued. -/
theorem isReal_neg {x : EReal} (hx : IsReal x) : IsReal (-x) := by
  obtain ⟨a, rfl⟩ := hx; exact ⟨-a, (EReal.coe_neg a).symm⟩
/-- The maximum of two real-valued extended reals is real-valued. -/
theorem isReal_max {x y : EReal} (hx : IsReal x) (hy : IsReal y) : IsReal (max x y) := by
  rcases max_choice x y with h | h <;> rw [h] <;> assumption
/-- The minimum of two real-valued extended reals is real-valued. -/
theorem isReal_min {x y : EReal} (hx : IsReal x) (hy : IsReal y) : IsReal (min x y) := by
  rcases min_choice x y with h | h <;> rw [h] <;> assumption
/-- The rectifier max(x, 0) of a real-valued extended real is real-valued. -/
theorem isReal_relu {x : EReal} (hx : IsReal x) : IsReal (max x 0) := isReal_max hx isReal_zero

section Sums
variable {ι : Type*}

/-- A finite sum of reals, read in the extended reals, is the extended-real sum. -/
theorem coe_finset_sum (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real-valued extended reals is real-valued. -/
theorem isReal_finset_sum (s : Finset ι) (f : ι → EReal) (hf : ∀ k ∈ s, IsReal (f k)) : IsReal (∑ k ∈ s, f k) := by
  classical
  induction s using Finset.induction_on with
  | empty => exact ⟨0, by simp⟩
  | insert a s ha ih =>
    rw [Finset.sum_insert ha]
    exact isReal_add (hf a (Finset.mem_insert_self a s)) (ih fun k hk => hf k (Finset.mem_insert_of_mem hk))

/-- A finite sum of products of real-valued extended reals (one entry of a matrix product) is real-valued. -/
theorem isReal_sum_mul (s : Finset ι) (f g : ι → EReal) (hf : ∀ k, IsReal (f k)) (hg : ∀ k, IsReal (g k)) :
    IsReal (∑ k ∈ s, f k * g k) :=
  isReal_finset_sum s _ fun k _ => isReal_mul (hf k) (hg k)

/-- THE DISTRIBUTIVE LAW: scaling each summand h k by ds k before the sum and the sum by dn after it is the sum of the
    summands scaled by the products ds k * dn. In the extended reals this needs every factor to be a real number. -/
theorem mul_sum_mul_eq (s : Finset ι) (dn : EReal) (h ds : ι → EReal) (hdn : IsReal dn)
    (hh : ∀ k, IsReal (h k)) (hds : ∀ k, IsReal (ds k)) :
    dn * ∑ k ∈ s, (h k * ds k) = ∑ k ∈ s, h k * (ds k * dn) := by
  obtain ⟨a, rfl⟩ := hdn
  choose hr hhr using hh
  choose dr hdr using hds
  simp only [hhr, hdr, ← EReal.coe_mul, ← coe_finset_sum]
  congr 1
  rw [Finset.mul_sum]
  exact Finset.sum_congr rfl fun k _ => by ring

/-- The distributive law with the outer factor read per summand: dd k is dn for every k of the summation set (an
    edge's target-node factor, on the edges whose target is the node summed at). -/
theorem mul_sum_mul_eq_of_eq (s : Finset ι) (dn : EReal) (h ds dd : ι → EReal) (hdn : IsReal dn)
    (hh : ∀ k, IsReal (h k)) (hds : ∀ k, IsReal (ds k)) (hdd : ∀ k ∈ s, dd k = dn) :
    dn * ∑ k ∈ s, (h k * ds k) = ∑ k ∈ s, h k * (ds k * dd k) := by
  rw [mul_sum_mul_eq s dn h ds hdn hh hds]
  exact Finset.sum_congr rfl fun k hk => by rw [hdd k hk]

/-- The law as the two programs meet it, each scatter-add started from a zero operand element: the target node's
    factor times (zero plus the sum of the pre-scaled rows) is zero plus the sum of the rows scaled per edge. -/
theorem mul_zero_add_sum_eq (s : Finset ι) (dn : EReal) (h ds dd : ι → EReal) (hdn : IsReal dn)
    (hh : ∀ k, IsReal (h k)) (hds : ∀ k, IsReal (ds k)) (hdd : ∀ k ∈ s, dd k = dn) :
    dn * (0 + ∑ k ∈ s, (h k * ds k)) = 0 + ∑ k ∈ s, h k * (ds k * dd k) := by
  rw [zero_add, zero_add]
  exact mul_sum_mul_eq_of_eq s dn h ds dd hdn hh hds hdd

/-- The same law with the factors in the order (ds k * h k) * dn on the left. -/
theorem sum_mul_mul_eq (s : Finset ι) (dn : EReal) (h ds : ι → EReal) (hdn : IsReal dn)
    (hh : ∀ k, IsReal (h k)) (hds : ∀ k, IsReal (ds k)) :
    (∑ k ∈ s, (ds k * h k)) * dn = ∑ k ∈ s, (ds k * dn) * h k := by
  obtain ⟨a, rfl⟩ := hdn
  choose hr hhr using hh
  choose dr hdr using hds
  simp only [hhr, hdr, ← EReal.coe_mul, ← coe_finset_sum]
  congr 1
  rw [Finset.sum_mul]
  exact Finset.sum_congr rfl fun k _ => by ring

end Sums

/-! ## The operations of a layer -/

/-- A matrix product with a real-valued accumulator and real-valued operands is real-valued at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ i, IsReal (acc i))
    (j : so.Idx) : IsReal (Ideal.matmul d lhs rhs acc j) :=
  isReal_add (ha j) (isReal_finset_sum _ _ fun k _ => isReal_mul (hl _) (hr _))

/-- A scatter-add of real-valued updates into a real-valued operand is real-valued at every index. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  isReal_add (hx i) (isReal_finset_sum _ _ fun j _ => hu j)

/-! ## The degree and its reciprocal square root -/

/-- Counting: zero plus a one for every element of a finite set is the set's cardinality, a real number. -/
theorem zero_add_sum_one {ι : Type*} (s : Finset ι) :
    (0 : EReal) + ∑ _j ∈ s, (1 : EReal) = ((s.card : ℝ) : EReal) := by
  rw [zero_add]
  have := coe_finset_sum s (fun _ => (1 : ℝ))
  simp only [Finset.sum_const, nsmul_eq_mul, mul_one] at this
  rw [this]
  simp

/-- The degree is real-valued. -/
theorem isReal_zero_add_sum_one {ι : Type*} (s : Finset ι) : IsReal ((0 : EReal) + ∑ _j ∈ s, (1 : EReal)) :=
  ⟨_, zero_add_sum_one s⟩

/-- The normaliser of a real degree r: the reciprocal square root where r is positive, zero elsewhere. -/
theorem select_rsqrt_coe (r : ℝ) :
    Scalar.select (Ideal.cmp .ogt (r : EReal) 0) (Ideal.rsqrt (r : EReal)) (0 : EReal)
      = ((if 0 < r then (Real.sqrt r)⁻¹ else 0 : ℝ) : EReal) := by
  by_cases h : 0 < r
  · have hc : Ideal.cmp .ogt (r : EReal) 0 = 1#1 := by
      unfold Ideal.cmp
      have : (0 : EReal) < (r : EReal) := by exact_mod_cast h
      simp [this]
    rw [hc, ValueIdx.select_one, if_pos h, Ideal.rsqrt_coe, if_neg (not_lt.mpr h.le), if_neg h.ne']
  · have hc : Ideal.cmp .ogt (r : EReal) 0 = 0#1 := by
      unfold Ideal.cmp
      have : ¬ (0 : EReal) < (r : EReal) := by exact_mod_cast h
      simp [this]
    rw [hc, ValueIdx.select_zero, if_neg h]
    simp

/-- For a real-valued degree the normaliser (reciprocal square root where positive, else zero) is real-valued. -/
theorem isReal_select_rsqrt {deg : EReal} (h : IsReal deg) :
    IsReal (Scalar.select (Ideal.cmp .ogt deg 0) (Ideal.rsqrt deg) (0 : EReal)) := by
  obtain ⟨r, rfl⟩ := h
  exact ⟨_, select_rsqrt_coe r⟩

/-- The normaliser as a program computes it on vectors — the select, on "degree greater than a zero vector", between
    the host's reciprocal square root of the degree and a zero vector — read at an index. -/
theorem select_cmpf_rsqrt_apply {s : Shape} {φ : FTy} (deg z z' : FVec Ideal s φ) (i : s.Idx)
    (hz : z i = 0) (hz' : z' i = 0) :
    select (cmpf .ogt deg z) (Host.rsqrt deg) z' i
      = Scalar.select (Ideal.cmp .ogt (deg i) 0) (Ideal.rsqrt (deg i)) (0 : EReal) := by
  show Scalar.select (FloatOps.cmpf .ogt (deg i) (z i)) (FloatOps.hostUnary .rsqrt (deg i)) (z' i) = _
  rw [hz, hz']; rfl

/-- That vector normaliser is real-valued wherever the degree is. -/
theorem isReal_select_cmpf_rsqrt {s : Shape} {φ : FTy} (deg z z' : FVec Ideal s φ) (i : s.Idx)
    (hz : z i = 0) (hz' : z' i = 0) (h : IsReal (deg i)) :
    IsReal (select (cmpf .ogt deg z) (Host.rsqrt deg) z' i) := by
  rw [select_cmpf_rsqrt_apply deg z z' i hz hz']
  exact isReal_select_rsqrt h

/-- The f32 pattern of all zero bits is the extended real zero. -/
theorem ofBits_zero_f32 : Ideal.ofBits .f32 0x00000000#32 = 0 := by simp [Ideal.ofBits, Ideal.ieee]

end GcnLib

end
-- ==== Proof.LibMatAssoc.lean ====
/-
  Reassociating a product of three matrices, entry by entry, at the extended reals.

  For A of shape [T, J], X of shape [J, K], W of shape [K, N] and a row b of shape [N], entry (r, q) of (A·X)·W + b is
  Σ_k (Σ_j A(r, j) · X(j, k)) · W(k, q) + b(q) and entry (r, q) of A·(X·W) + b is Σ_j A(r, j) · (Σ_k X(j, k) · W(k, q)) + b(q).
  The two double sums are rearrangements of the one sum over the pairs (j, k) of A(r, j) · X(j, k) · W(k, q); passing from either
  to that sum distributes a factor over a sum, which in the extended reals is only valid away from the infinities. So the
  equality is stated for entries that are real numbers, and proved by reading both sides in the reals.
-/
import Idealize.ShloMosaic.PureOps.Ideal
import Idealize.ShloMosaic.Lib.ValueIdx
import proofs.«167867_j90305982365717_2_alg».proof.Proof.LibGcnSum

noncomputable section

open scoped BigOperators

namespace Cert.LibMatAssoc

open Idealize.ShloMosaic Idealize.ShloMosaic.ValueIdx GcnLib

/-- The rearrangement on abstract finite index sets: for real-valued a, x, w,
    Σ_k (Σ_j a j · x j k) · w k = Σ_j a j · (Σ_k x j k · w k). -/
theorem sum_mul_sum_assoc {ι κ : Type*} (s : Finset ι) (t : Finset κ) (a : ι → EReal) (x : ι → κ → EReal) (w : κ → EReal)
    (ha : ∀ j, IsReal (a j)) (hx : ∀ j k, IsReal (x j k)) (hw : ∀ k, IsReal (w k)) :
    ∑ k ∈ t, (∑ j ∈ s, a j * x j k) * w k = ∑ j ∈ s, a j * ∑ k ∈ t, x j k * w k := by
  choose ar har using ha
  choose xr hxr using hx
  choose wr hwr using hw
  simp only [har, hxr, hwr, ← EReal.coe_mul, ← coe_finset_sum]
  congr 1
  simp only [Finset.sum_mul, Finset.mul_sum]
  rw [Finset.sum_comm]
  exact Finset.sum_congr rfl fun j _ => Finset.sum_congr rfl fun k _ => by ring

variable {T J K N : ℕ}

/-- Entry (r, q) of (A·X)·W + b: the rows are combined first, the features projected after. -/
def aggThenProj (A : (⟨2, ![T, J]⟩ : Shape).Idx → EReal) (X : (⟨2, ![J, K]⟩ : Shape).Idx → EReal)
    (W : (⟨2, ![K, N]⟩ : Shape).Idx → EReal) (b : (⟨1, ![N]⟩ : Shape).Idx → EReal) (r : Fin T) (q : Fin N) : EReal :=
  (∑ k : Fin K, (∑ j : Fin J, A (ix2 r j) * X (ix2 j k)) * W (ix2 k q)) + b (ix1 q)

/-- Entry (r, q) of A·(X·W) + b: the features are projected first, the rows combined after. -/
def projThenAgg (A : (⟨2, ![T, J]⟩ : Shape).Idx → EReal) (X : (⟨2, ![J, K]⟩ : Shape).Idx → EReal)
    (W : (⟨2, ![K, N]⟩ : Shape).Idx → EReal) (b : (⟨1, ![N]⟩ : Shape).Idx → EReal) (r : Fin T) (q : Fin N) : EReal :=
  (∑ j : Fin J, A (ix2 r j) * ∑ k : Fin K, X (ix2 j k) * W (ix2 k q)) + b (ix1 q)

/-- (A·X)·W + b = A·(X·W) + b at every entry, when the entries of A, X and W are real numbers (b may be anything). -/
theorem aggThenProj_eq_projThenAgg (A : (⟨2, ![T, J]⟩ : Shape).Idx → EReal) (X : (⟨2, ![J, K]⟩ : Shape).Idx → EReal)
    (W : (⟨2, ![K, N]⟩ : Shape).Idx → EReal) (b : (⟨1, ![N]⟩ : Shape).Idx → EReal)
    (hA : ∀ i, IsReal (A i)) (hX : ∀ i, IsReal (X i)) (hW : ∀ i, IsReal (W i)) (r : Fin T) (q : Fin N) :
    aggThenProj A X W b r q = projThenAgg A X W b r q := by
  unfold aggThenProj projThenAgg
  rw [sum_mul_sum_assoc Finset.univ Finset.univ (fun j => A (ix2 r j)) (fun j k => X (ix2 j k)) (fun k => W (ix2 k q))
    (fun _ => hA _) (fun _ _ => hX _) (fun _ => hW _)]

/-- (A·X)·W + b as an array of shape [T, N]. -/
def aggThenProjArr (A : (⟨2, ![T, J]⟩ : Shape).Idx → EReal) (X : (⟨2, ![J, K]⟩ : Shape).Idx → EReal)
    (W : (⟨2, ![K, N]⟩ : Shape).Idx → EReal) (b : (⟨1, ![N]⟩ : Shape).Idx → EReal) : (⟨2, ![T, N]⟩ : Shape).Idx → EReal :=
  fun i => aggThenProj A X W b (i 0) (i 1)

/-- A·(X·W) + b as an array of shape [T, N]. -/
def projThenAggArr (A : (⟨2, ![T, J]⟩ : Shape).Idx → EReal) (X : (⟨2, ![J, K]⟩ : Shape).Idx → EReal)
    (W : (⟨2, ![K, N]⟩ : Shape).Idx → EReal) (b : (⟨1, ![N]⟩ : Shape).Idx → EReal) : (⟨2, ![T, N]⟩ : Shape).Idx → EReal :=
  fun i => projThenAgg A X W b (i 0) (i 1)

/-- The two arrays are one when the entries of A, X and W are real numbers. -/
theorem aggThenProjArr_eq_projThenAggArr (A : (⟨2, ![T, J]⟩ : Shape).Idx → EReal) (X : (⟨2, ![J, K]⟩ : Shape).Idx → EReal)
    (W : (⟨2, ![K, N]⟩ : Shape).Idx → EReal) (b : (⟨1, ![N]⟩ : Shape).Idx → EReal)
    (hA : ∀ i, IsReal (A i)) (hX : ∀ i, IsReal (X i)) (hW : ∀ i, IsReal (W i)) :
    aggThenProjArr A X W b = projThenAggArr A X W b :=
  funext fun i => aggThenProj_eq_projThenAgg A X W b hA hX hW (i 0) (i 1)

end Cert.LibMatAssoc

end
-- ==== Proof.Spec.lean ====
/-
  The mathematics both programs compute, stated once over plain index types.

  For a matrix x with n rows of length d and a square weight matrix w of size d:
  a row's length is max(sqrt(Σ_k row_k²), ε) with ε the single-precision word for 1e-12, its unit vector the row divided
  by that length. Write u for the matrix of unit rows. One program forms the d × d matrix uᵀ·x first, multiplies it by
  w, and applies u last; the other forms the n × n matrix u·uᵀ, applies it to x, and multiplies by w last. Entry (i, j):
      Σ_a u i a · (Σ_e (Σ_m u m a · x m e) · w e j)        and        Σ_e (Σ_m (Σ_a u i a · u m a) · x m e) · w e j.
  Both are the sum over (a, m, e) of u i a · u m a · x m e · w e j. Passing between them moves a factor across a sum
  twice, which on the extended reals needs every entry to be a real number.
-/
import Idealize.ShloMosaic.PureOps.Ideal
import Idealize.ShloMosaic.Lib.ValueIdx
import proofs.«167867_j90305982365717_2_alg».proof.Proof.LibGcnSum
import proofs.«167867_j90305982365717_2_alg».proof.Proof.LibMatAssoc

noncomputable section

open scoped BigOperators

namespace Cert.GramSpec

open Idealize.ShloMosaic GcnLib

/-- The floor under a row's length: the single-precision word both programs print for 1e-12. -/
def eps : EReal := Ideal.ofBits .f32 0x2B8CBCCC#32

/-- A row's length, floored at ε. -/
def rowLen {d : ℕ} (row : Fin d → EReal) : EReal := max (Ideal.sqrt (∑ k, row k * row k)) eps

/-- Coordinate a of a row's unit vector. -/
def unitE {d : ℕ} (row : Fin d → EReal) (a : Fin d) : EReal := Ideal.div (row a) (rowLen row)

/-- Entry (a, e) of uᵀ·x, the d × d matrix of feature co-occurrences. -/
def gramE {n d : ℕ} (x : Fin n → Fin d → EReal) (a e : Fin d) : EReal := ∑ m, unitE (x m) a * x m e

/-- Entry (i, j) with the small matrices multiplied first: u · ((uᵀ·x) · w). -/
def smallFirst {n d : ℕ} (x : Fin n → Fin d → EReal) (w : Fin d → Fin d → EReal) (i : Fin n) (j : Fin d) : EReal :=
  ∑ a, unitE (x i) a * ∑ e, gramE x a e * w e j

/-- Entry (i, j) with the n × n matrix of row similarities formed first: ((u·uᵀ) · x) · w. -/
def simFirst {n d : ℕ} (x : Fin n → Fin d → EReal) (w : Fin d → Fin d → EReal) (i : Fin n) (j : Fin d) : EReal :=
  ∑ e, (∑ m, (∑ a, unitE (x i) a * unitE (x m) a) * x m e) * w e j

/-- ε is a positive real number. -/
theorem eps_real : ∃ r : ℝ, 0 < r ∧ eps = (r : EReal) := by
  unfold eps
  refine ⟨_, ?_, by simp [Ideal.ofBits, Ideal.ieee]; rfl⟩
  norm_num

end Cert.GramSpec

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibDotTN.lean ====
/-
  A matrix product that contracts the FIRST axis of both operands, read at an index as a sum over the contracted
  extent: for dimension numbers that contract the left operand's axis 0 with the right operand's axis 0, with no
  batch axes — the product of the transpose of a [K, M] matrix with a [K, N] matrix — the operand indices at result
  index (p, q) and contraction index k are (k, p) and (k, q); so the sum over the contraction shape is the sum over
  k < K of lhs (k, p) · rhs (k, q). Both a kernel's accumulating product into a zero accumulator and the host's
  product without an accumulator are that sum at the extended reals. Generic in the three extents.
-/
import Idealize.ShloMosaic.Lib.ValueIdx
import Idealize.ShloMosaic.PureOps.Ideal.Laws
import Idealize.ShloMosaic.Lib.KernelVsHost
import proofs.«167867_j90305982365717_2_alg».proof.Proof.LibDot

noncomputable section

namespace Idealize.ShloMosaic.LibDotTN

open Idealize.ShloMosaic Idealize.ShloMosaic.ValueIdx Idealize.ShloMosaic.LibDot

/-- The transposed-left product's sum over the contraction shape is the sum over the contracted extent. -/
theorem sum_tn {M K N : ℕ} (d : DotDims ⟨2, ![K, M]⟩ ⟨2, ![K, N]⟩ ⟨2, ![M, N]⟩)
    (hlc : d.lhsContracting = [0]) (hrc : d.rhsContracting = [0])
    (hlb : d.lhsBatch = []) (hrb : d.rhsBatch = []) (hln : d.lhsNonContracting = [1]) (hrn : d.rhsNonContracting = [1])
    (lhs : (⟨2, ![K, M]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 k p) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 k p := by
    funext a; apply Fin.ext
    match a with
    | ⟨0, _⟩ =>
      exact (d.lhsIdx_val_of_single (cl := 0) hlc _ _).trans (contrEquiv1_symm_val d K hr hs k)
    | ⟨1, _⟩ =>
      exact lhsIdx_val_of_non d (a := 1) (by rw [hlb]; exact List.not_mem_nil) (by rw [hln]; exact List.mem_singleton.mpr rfl) _ _ 0 (Nat.zero_lt_two)
        (by rw [hlb, hln]; rfl)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_tn {M K N : ℕ} {φ₁ φ₂ : FTy} (d : DotDims ⟨2, ![K, M]⟩ ⟨2, ![K, N]⟩ ⟨2, ![M, N]⟩)
    (hlc : d.lhsContracting = [0]) (hrc : d.rhsContracting = [0])
    (hlb : d.lhsBatch = []) (hrb : d.rhsBatch = []) (hln : d.lhsNonContracting = [1]) (hrn : d.rhsNonContracting = [1])
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 k p) * rhs (ix2 k q) :=
  (Ideal.matmul_constant_zero_apply d prec lhs rhs (ix2 p q)).trans (sum_tn d hlc hrc hlb hrb hln hrn lhs rhs p q)

/-- The host's product, read at (p, q). -/
theorem dotGeneral_tn {M K N : ℕ} {φ₁ φ₂ : FTy} (d : DotDims ⟨2, ![K, M]⟩ ⟨2, ![K, N]⟩ ⟨2, ![M, N]⟩)
    (hlc : d.lhsContracting = [0]) (hrc : d.rhsContracting = [0])
    (hlb : d.lhsBatch = []) (hrb : d.rhsBatch = []) (hln : d.lhsNonContracting = [1]) (hrn : d.rhsNonContracting = [1])
    (prec : Option ContractPrecision) (lhs : FVec Ideal ⟨2, ![K, M]⟩ φ₁) (rhs : FVec Ideal ⟨2, ![K, N]⟩ φ₂) (p : Fin M) (q : Fin N) :
    Host.dotGeneral d prec lhs rhs (ix2 p q) = ∑ k : Fin K, lhs (ix2 k p) * rhs (ix2 k q) := by
  rw [← matmul_zero_eq_dotGeneral]
  exact matmul_zero_tn d hlc hrc hlb hrb hln hrn prec lhs rhs p q

end Idealize.ShloMosaic.LibDotTN

end
-- ==== Proof.LibDotT.lean ====
/-
  General lemmas, at any extents.

  * A matrix product that contracts the SECOND axis of both operands, with no batch axes — an [M, K] matrix times the
    transpose of an [N, K] matrix — read at (p, q) is the sum over k < K of lhs (p, k) · rhs (q, k); for a kernel's
    accumulating product into the zero splat.
  * Reducing the FIRST axis of an [a, b] vector to [b]: the reduced index q with coordinate k put back is (k, q).
-/
import Idealize.ShloMosaic.Lib.ValueIdx
import Idealize.ShloMosaic.PureOps.Ideal.Laws
import proofs.«167867_j90305982365717_2_alg».proof.Proof.LibDot

noncomputable section

namespace Idealize.ShloMosaic.LibDotT

open Idealize.ShloMosaic Idealize.ShloMosaic.ValueIdx

/-- The sum over the contraction shape is the sum over the contracted extent. -/
theorem sum_nt {M K N : ℕ} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact LibDot.lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 q k := by
    funext a; apply Fin.ext
    match a with
    | ⟨0, _⟩ =>
      exact LibDot.rhsIdx_val_of_non d (a := 0) (by rw [hrb]; exact List.not_mem_nil) (by rw [hrn]; exact List.mem_singleton.mpr rfl) _ _ 1 (Nat.one_lt_two)
        (by rw [hlb, hln, hrn]; rfl)
    | ⟨1, _⟩ =>
      exact (d.rhsIdx_val_of_single (cr := 1) hrc _ _).trans (contrEquiv1_symm_val d K hr hs k)
  rw [hl, hrr]

/-- A kernel's product of a matrix with a transposed matrix, accumulated into the zero splat, read at (p, q). -/
theorem matmul_zero_nt {M K N : ℕ} {φ₁ φ₂ : FTy} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) :=
  (Ideal.matmul_constant_zero_apply d prec lhs rhs (ix2 p q)).trans (sum_nt d hlc hrc hlb hrb hln hrn lhs rhs p q)

/-- Reducing the first axis of `[a, b]` to `[b]`: the reduced index `q` with coordinate `k` put back is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by
    match ax with
    | ⟨0, _⟩ => rfl
    | ⟨1, _⟩ => rfl)

end Idealize.ShloMosaic.LibDotT

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.LibSumAxis.lean ====
/-
  General lemmas about rank-2 float vectors at the extended reals, at any extents.

  * A float sum (a lane reduction with the zero accumulator) over the first axis of an [a, b] vector, read at q, is the
    sum over k of the vector at (k, q); over the second axis, read at p, the sum over k of the vector at (p, k).
  * A column [a, 1] cast to a vector [a] reads, at p, the column's entry of row p.
  * The exponential and the logistic function of a vector, read at an index.
-/
import Idealize.ShloMosaic.Lib.Pipeline.Value
import Idealize.ShloMosaic.Lib.ValueIdx
import Idealize.ShloMosaic.PureOps.Ideal.Laws
import proofs.«167867_j90305982365717_2_alg».proof.Proof.LibDotT
import proofs.«167867_j90305982365717_2_alg».proof.Proof.LibColumn

noncomputable section

open scoped BigOperators

namespace Cert.LibSumAxis

open Idealize.ShloMosaic Idealize.ShloMosaic.ValueIdx

/-- The exponential of a vector, read at an index. -/
theorem exp_apply {s : Shape} {φ : FTy} (a : FVec Ideal s φ) (i : s.Idx) : exp a i = Ideal.exp (a i) := rfl

/-- The logistic function of a vector, read at an index. -/
theorem logistic_apply {s : Shape} {φ : FTy} (a : FVec Ideal s φ) (i : s.Idx) : logistic a i = Ideal.logistic (a i) := rfl

/-- A float sum over the first axis of an [a, b] vector, read at q: the sum over k of the vector at (k, q). -/
theorem sum_first_axis {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (Idealize.ShloMosaic.LibDotT.lift_col h q k)

/-- A float sum over the second axis of an [a, b] vector, read at p: the sum over k of the vector at (p, k). -/
theorem sum_second_axis {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (Cert.LibColumn.lift_row h p k)

/-- A column [a, 1] cast to a vector [a] reads, at p, the column's entry of row p. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibSumAxis

end
-- ==== Proof.Pay0.lean ====
/-
  The first kernel's three stored values, read at an index, at the extended reals.

  * The initial value of the accumulator is the zero splat: every entry is 0.
  * One step adds to the accumulator the product uᵀ·x of a block x of 1024 rows, where u is the block with every row
    divided by its length max(sqrt(Σ_k row_k²), ε). The row sums of squares are a lane sum over the second axis from
    the zero word; the column of lengths [1024] → [1024, 1] → [1024, 1024] reads, at (r, p), the length of row r; the
    change of format to 16 bits is the identity at the extended reals; the product contracts the first axis of
    both operands into a zero accumulator, so entry (p, q) is Σ_r u r p · x r q.
  * The value written out is the accumulator with a leading unit axis added: entry (0, p, q) is entry (p, q).
-/
import proofs.«167867_j90305982365717_2_alg».proof.Proof.Gen.KernelIdeal.Skeleton
import proofs.«167867_j90305982365717_2_alg».proof.Proof.Spec
import proofs.«167867_j90305982365717_2_alg».proof.Proof.LibDotTN
import proofs.«167867_j90305982365717_2_alg».proof.Proof.LibSumAxis
import proofs.«167867_j90305982365717_2_alg».proof.Proof.LibColumn
import Idealize.ShloMosaic.Lib.ValueLayout

noncomputable section

open scoped BigOperators

namespace Cert.KernelIdeal.Pay

open Idealize.ShloMosaic Idealize.ShloMosaic.ValueIdx Cert.KernelIdeal Cert.KernelIdeal.Gen Cert.GramSpec

variable [Cert.KernelIdeal.Facts]

/-- The accumulator's initial value: the zero splat, cast to its own shape, is 0 at every index. -/
theorem pay1_apply (j : S1024x1024.Idx) : k0_pay1 (F := Ideal) j = 0 := by
  unfold k0_pay1
  refine (congrFun (shapeCast_self _ _) j).trans ?_
  exact GcnLib.ofBits_zero_f32

/-- The value written out: the accumulator with a leading unit axis, read at (0, p, q), is the accumulator at (p, q). -/
theorem pay3_apply (v : Vec Ideal S1024x1024 .f32) (p q : Fin 1024) :
    k0_pay3 (F := Ideal) v (ix3 (0 : Fin 1) p q) = v (ix2 p q) := by
  unfold k0_pay3
  exact shapeCast_ab_1ab_apply v _ (0 : Fin 1) p q

/-- One accumulation step at (p, q): the accumulator plus Σ_r u r p · x r q, with u the block's unit rows. -/
theorem pay2_apply (x0 acc : Vec Ideal S1024x1024 .f32) (p q : Fin 1024) :
    k0_pay2 (F := Ideal) x0 acc (ix2 p q)
      = acc (ix2 p q) + ∑ r : Fin 1024, unitE (fun k => x0 (ix2 r k)) p * x0 (ix2 r q) := by
  unfold k0_pay2
  refine (congrFun (shapeCast_self _ _) (ix2 p q)).trans ?_
  refine congrArg (acc (ix2 p q) + ·) ?_
  refine (Idealize.ShloMosaic.LibDotTN.matmul_zero_tn dot_S1024x1024_S1024x1024_S1024x1024_0_0_1_1_n_n rfl rfl rfl rfl rfl rfl none _ _ p q).trans ?_
  refine Finset.sum_congr rfl fun r _ => ?_
  refine congrArg (· * x0 (ix2 r q)) ?_
  show Ideal.div (x0 (ix2 r p)) _ = Ideal.div (x0 (ix2 r p)) (max (Ideal.sqrt (∑ k, x0 (ix2 r k) * x0 (ix2 r k))) eps)
  refine congrArg (Ideal.div (x0 (ix2 r p))) ?_
  refine (Cert.LibColumn.broadcastTo_a1_ab_apply _ _ r p).trans ?_
  refine congrArg (fun t => max (Ideal.sqrt t) eps) ?_
  refine (Cert.LibColumn.shapeCast_a_a1_apply _ _ r (0 : Fin 1)).trans ?_
  exact Cert.LibSumAxis.sum_second_axis _ _ _ _ r

end Cert.KernelIdeal.Pay

end
-- ==== Proof.LibTileSum.lean ====
/-
  A sum over T·R consecutive indices, regrouped into T tiles of R: the sum over n < T·R of f n is the sum over the tiles
  t < T of the sums over the rows r < R of f (R·t + r). A reordering of a finite sum in a commutative monoid: it holds
  on the extended reals with no finiteness condition.
-/
import Mathlib.Algebra.BigOperators.Fin
import Mathlib.Logic.Equiv.Fin.Basic

open scoped BigOperators

namespace LibTileSum

/-- A sum over T·R indices is the sum over T tiles of the sums over their R rows. -/
theorem sum_tiles {M : Type*} [AddCommMonoid M] (T R : ℕ) (f : Fin (T * R) → M) :
    ∑ n : Fin (T * R), f n
      = ∑ t : Fin T, ∑ r : Fin R, f ⟨R * t.val + r.val, by
          have ht := t.isLt; have hr := r.isLt
          have h1 : R * (t.val + 1) ≤ R * T := Nat.mul_le_mul_left _ ht
          rw [Nat.mul_succ] at h1
          rw [Nat.mul_comm T R]; omega⟩ := by
  rw [← Equiv.sum_comp finProdFinEquiv f, Fintype.sum_prod_type]
  refine Finset.sum_congr rfl fun t _ => Finset.sum_congr rfl fun r _ => congrArg f (Fin.ext ?_)
  show r.val + R * t.val = R * t.val + r.val
  omega

end LibTileSum
-- ==== Proof.TileAlg.lean ====
/-
  The matrix uᵀ·x accumulated in eight blocks of rows.

  Entry (a, e) of uᵀ·x is a sum over all 8192 rows. Since 8192 = 8 · 1024, that sum is the sum over eight blocks of
  1024 consecutive rows of each block's contribution; adding the first four and the last four contributions to two
  accumulators started at zero and then adding the accumulators gives the same value. Only commutativity and
  associativity of addition are used, so nothing needs to be finite.
-/
import proofs.«167867_j90305982365717_2_alg».proof.Proof.Spec
import proofs.«167867_j90305982365717_2_alg».proof.Proof.LibTileSum

noncomputable section

open scoped BigOperators

namespace Cert.GramSpec

open Idealize.ShloMosaic

/-- The contribution of the t-th block of 1024 rows to entry (a, e) of uᵀ·x. -/
def contrib (x : Fin 8192 → Fin 1024 → EReal) (t : Fin 8) (a e : Fin 1024) : EReal :=
  ∑ r : Fin 1024, unitE (x ⟨1024 * t.val + r.val, by omega⟩) a * x ⟨1024 * t.val + r.val, by omega⟩ e

/-- Entry (a, e) of uᵀ·x is the sum of the eight blocks' contributions. -/
theorem gram_eq_sum_contrib (x : Fin 8192 → Fin 1024 → EReal) (a e : Fin 1024) :
    gramE x a e = ∑ t : Fin 8, contrib x t a e :=
  LibTileSum.sum_tiles 8 1024 (fun n : Fin (8 * 1024) => unitE (x n) a * x n e)

/-- Two accumulators started at zero, one taking the first four blocks and one the last four, add up to the entry. -/
theorem halves_eq_gram (x : Fin 8192 → Fin 1024 → EReal) (a e : Fin 1024) :
    ((((0 + contrib x 0 a e) + contrib x 1 a e) + contrib x 2 a e) + contrib x 3 a e)
      + ((((0 + contrib x 4 a e) + contrib x 5 a e) + contrib x 6 a e) + contrib x 7 a e) = gramE x a e := by
  rw [gram_eq_sum_contrib, Fin.sum_univ_eight]
  simp only [zero_add, add_assoc]

/-- One half's accumulation: its four blocks' contributions added one after the other to zero. -/
def half (x : Fin 8192 → Fin 1024 → EReal) (h : Fin 2) (a e : Fin 1024) : EReal :=
  (((0 + contrib x ⟨4 * h.val, by omega⟩ a e) + contrib x ⟨4 * h.val + 1, by omega⟩ a e)
    + contrib x ⟨4 * h.val + 2, by omega⟩ a e) + contrib x ⟨4 * h.val + 3, by omega⟩ a e

/-- The two halves' accumulations add up to the entry of uᵀ·x. -/
theorem half_add_half (x : Fin 8192 → Fin 1024 → EReal) (a e : Fin 1024) :
    half x 0 a e + half x 1 a e = gramE x a e :=
  halves_eq_gram x a e

end Cert.GramSpec

end
-- ==== Proof.IdealVal0.lean ====
/-
  The first kernel region's result array as one function of its input array.

  Position t of the grid stages rows 1024·t … 1024·t + 1023 of x, so the step at position t adds to the accumulator,
  at (p, q), the t-th block's contribution Σ_r u (1024·t + r) p · x (1024·t + r) q to entry (p, q) of uᵀ·x. The
  accumulator starts from zeros at positions 0 and 4, so after position 4h + 3 it holds half h: the four
  contributions of blocks 4h … 4h + 3 added one after the other to zero. Those are the positions at which the output
  block h is written back, and the two blocks tile the output array: entry (h, p, q) of the result is half h at (p, q).
-/
import proofs.«167867_j90305982365717_2_alg».proof.Proof.IdealReg0
import proofs.«167867_j90305982365717_2_alg».proof.Proof.Pay0
import proofs.«167867_j90305982365717_2_alg».proof.Proof.TileAlg
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GramSpec

variable (V : (c : Dev nD) → (b : Ref sig .tc) → Buf (Elt Ideal) ((c : Thread nD τ).loc b))

/-- The input array as a matrix of 8192 rows of length 1024. -/
abbrev rowsOf (c : Dev nD) : Fin 8192 → Fin 1024 → EReal := fun r k => V c main_arg0 (ix2 r k)

/-! ## The index maps, decided over the grid -/

/-- At position t the row block is block (t, 0) of x and the output block is block (t / 4, 0, 0) of the result. -/
theorem idx_facts0 : ∀ t : Fin cfg0.N, win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0 :=
  (by decide +kernel : ∀ t : Fin grid0.N, win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0)

/-! ## The row block and one step -/

/-- Entry (r, k) of the row block at position t is entry (1024·t + r, k) of x. -/
theorem iblk0_apply (c : Dev nD) (t : Fin cfg0.N) (r k : Fin 1024) (ht : 1024 * t.val + r.val < 8192) :
    (iblk0 V c 0 t : Vec Ideal S1024x1024 .f32) (ix2 r k) = V c main_arg0 (ix2 ⟨1024 * t.val + r.val, ht⟩ k) := by
  obtain ⟨e0, e1, -⟩ := idx_facts0 t
  unfold iblk0
  rw [View.read_apply]
  show V c main_arg0 (((cfg0.win 0).blk t).view.emb (ix2 r k)) = _
  refine congrArg (V c main_arg0) ?_
  funext a
  apply Fin.ext
  match a with
  | ⟨0, _⟩ => show win0_0.index t (0 : Fin 2) * 1024 + 1 * r.val = 1024 * t.val + r.val; rw [e0]; omega
  | ⟨1, _⟩ => show win0_0.index t (1 : Fin 2) * 1024 + 1 * k.val = k.val; rw [e1]; omega

/-- One step at position t adds, at (p, q), the t-th block's contribution to entry (p, q) of uᵀ·x. -/
theorem step_apply (c : Dev nD) (t : Fin cfg0.N) (acc : Vec Ideal S1024x1024 .f32) (p q : Fin 1024) (ht : t.val < 8) :
    k0_pay2 (F := Ideal) (iblk0 V c 0 t) acc (ix2 p q) = acc (ix2 p q) + contrib (rowsOf V c) ⟨t.val, ht⟩ p q := by
  refine (Pay.pay2_apply (iblk0 V c 0 t) acc p q).trans ?_
  refine congrArg (acc (ix2 p q) + ·) ?_
  unfold contrib
  refine Finset.sum_congr rfl fun r _ => ?_
  have hr : ∀ k : Fin 1024, (iblk0 V c 0 t : Vec Ideal S1024x1024 .f32) (ix2 r k)
      = V c main_arg0 (ix2 ⟨1024 * t.val + r.val, by have := r.isLt; omega⟩ k) := fun k => iblk0_apply V c t r k _
  exact congrArg₂ (· * ·) (congrArg (fun row => unitE row p) (funext hr)) (hr q)

/-! ## The accumulator after each position -/

/-- After a position that is a multiple of 4 the accumulator is zero plus that block's contribution. -/
theorem accAt_first_apply (c : Dev nD) (n : ℕ) (hn : n < cfg0.N) (h0 : n % 4 = 0) (hn8 : n < 8) (p q : Fin 1024) :
    accAt V c n hn (ix2 p q) = 0 + contrib (rowsOf V c) ⟨n, hn8⟩ p q := by
  refine (congrFun (accAt_first V c ⟨n, hn⟩ h0) (ix2 p q)).trans ?_
  refine (step_apply V c ⟨n, hn⟩ _ p q hn8).trans ?_
  rw [Pay.pay1_apply]

/-- After any other position it is what the position before left plus that block's contribution. -/
theorem accAt_next_apply (c : Dev nD) (n m : ℕ) (hn : n < cfg0.N) (hm : m < cfg0.N) (e : n = m + 1) (h0 : ¬ n % 4 = 0)
    (hn8 : n < 8) (p q : Fin 1024) :
    accAt V c n hn (ix2 p q) = accAt V c m hm (ix2 p q) + contrib (rowsOf V c) ⟨n, hn8⟩ p q := by
  subst e
  refine (congrFun (accAt_next V c ⟨m + 1, hn⟩ h0) (ix2 p q)).trans ?_
  exact step_apply V c ⟨m + 1, hn⟩ _ p q hn8

/-- After position 4h + 3 the accumulator holds half h. -/
theorem accAt_half (c : Dev nD) (h : Fin 2) (p q : Fin 1024) (hn : 4 * h.val + 3 < cfg0.N) :
    accAt V c (4 * h.val + 3) hn (ix2 p q) = half (rowsOf V c) h p q := by
  have hN : cfg0.N = 8 := N_0
  have hh := h.isLt
  unfold half
  rw [accAt_next_apply V c (4 * h.val + 3) (4 * h.val + 2) hn (by omega) (by omega) (by omega) (by omega) p q,
    accAt_next_apply V c (4 * h.val + 2) (4 * h.val + 1) (by omega) (by omega) (by omega) (by omega) (by omega) p q,
    accAt_next_apply V c (4 * h.val + 1) (4 * h.val) (by omega) (by omega) (by omega) (by omega) (by omega) p q,
    accAt_first_apply V c (4 * h.val) (by omega) (by omega) (by omega) p q]

/-- The same with the position and the coordinates given up to their values. -/
theorem accAt_half_of (c : Dev nD) (n : ℕ) (hn : n < cfg0.N) (h : Fin 2) (p q p' q' : Fin 1024) (en : n = 4 * h.val + 3)
    (ep : p'.val = p.val) (eq : q'.val = q.val) :
    accAt V c n hn (ix2 p' q') = half (rowsOf V c) h p q := by
  obtain rfl : p' = p := Fin.ext ep
  obtain rfl : q' = q := Fin.ext eq
  subst en
  exact accAt_half V c h p' q' hn

/-! ## What is written back, and where -/

/-- The value written out at (z, p, q) is the accumulator at (p, q). -/
theorem written_apply (acc : Vec Ideal S1024x1024 .f32) (j : S1x1024x1024.Idx) :
    k0_pay3 (F := Ideal) acc j = acc (ix2 (j 1) (j 2)) := by
  obtain ⟨z, p, q, rfl⟩ : ∃ (z : Fin 1) (p q : Fin 1024), j = ix3 z p q := ⟨j 0, j 1, j 2, eq_ix3 j⟩
  obtain rfl : z = 0 := Subsingleton.elim _ _
  exact Pay.pay3_apply acc p q

/-- The result array's contents: entry (h, p, q) is half h at (p, q). -/
abbrev halves (c : Dev nD) : S2x1024x1024.Idx → EReal := fun i => half (rowsOf V c) (i 0) (i 1) (i 2)

/-- What a writing position writes back is its block of that array. -/
theorem flushed0_eq (c : Dev nD) (t : Fin cfg0.N) (hf : (cfg0.win 1).flush t = true) :
    (dat0 (F := Ideal) V c).flushed 1 t = ((cfg0.win 1).blk t).view.read (Elt Ideal) (halves V c) := by
  have h3 : t.val % 4 = 3 := (flush0_1 t).mp hf
  obtain ⟨-, -, e0, e1, e2⟩ := idx_facts0 t
  show (cfg0.win 1).cut (grid0.coords t) ((dat0 (F := Ideal) V c).after 1 t) = _
  rw [after0_1]
  funext j
  rw [View.read_apply]
  show k0_pay3 (F := Ideal) (accAt V c t.val t.isLt) ((cfg0.win 1).xinj (grid0.coords t) j)
    = halves V c (((cfg0.win 1).blk t).view.emb j)
  refine (written_apply _ _).trans ?_
  have hj0 : (j 0).val < 1 := (j 0).isLt
  refine accAt_half_of V c t.val t.isLt _ _ _ _ _ ?_ ?_ ?_
  · show t.val = 4 * (win0_1.index t (0 : Fin 3) * 1 + 1 * (j 0).val) + 3
    rw [e0]; omega
  · show (j 1).val = win0_1.index t (1 : Fin 3) * 1024 + 1 * (j 1).val
    rw [e1]; omega
  · show (j 2).val = win0_1.index t (2 : Fin 3) * 1024 + 1 * (j 2).val
    rw [e2]; omega

/-- An index of the result array is in position t's block iff each coordinate is in the block's range on its axis. -/
theorem mem_blk0_1 (t : Fin cfg0.N) (i : S2x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every index (h, p, q) of the result array lies in the block written back at position 4h + 3. -/
theorem cover0_1 (i : S2x1024x1024.Idx) :
    ∃ t : Fin cfg0.N, (cfg0.win 1).flush t = true ∧ i ∈ ((cfg0.win 1).blk t).view.set := by
  have hN : cfg0.N = 8 := N_0
  have hN' : grid0.N = 8 := N_0
  have hi0 : (i 0).val < 2 := (i 0).isLt
  have hi1 : (i 1).val < 1024 := (i 1).isLt
  have hi2 : (i 2).val < 1024 := (i 2).isLt
  refine ⟨⟨4 * (i 0).val + 3, by omega⟩, (flush0_1 _).mpr (by show (4 * (i 0).val + 3) % 4 = 3; omega), ?_⟩
  obtain ⟨-, -, e0, e1, e2⟩ := idx_facts0 ⟨4 * (i 0).val + 3, by omega⟩
  have e0' : win0_1.index ⟨4 * (i 0).val + 3, by omega⟩ (0 : Fin 3) = (4 * (i 0).val + 3) / 4 := e0
  rw [mem_blk0_1]
  intro a
  match a with
  | ⟨0, _⟩ =>
    show win0_1.index ⟨4 * (i 0).val + 3, _⟩ (0 : Fin 3) * 1 ≤ (i 0).val
      ∧ (i 0).val < win0_1.index ⟨4 * (i 0).val + 3, _⟩ (0 : Fin 3) * 1 + 1
    rw [e0']; omega
  | ⟨1, _⟩ =>
    show win0_1.index ⟨4 * (i 0).val + 3, _⟩ (1 : Fin 3) * 1024 ≤ (i 1).val
      ∧ (i 1).val < win0_1.index ⟨4 * (i 0).val + 3, _⟩ (1 : Fin 3) * 1024 + 1024
    rw [e1]; omega
  | ⟨2, _⟩ =>
    show win0_1.index ⟨4 * (i 0).val + 3, _⟩ (2 : Fin 3) * 1024 ≤ (i 2).val
      ∧ (i 2).val < win0_1.index ⟨4 * (i 0).val + 3, _⟩ (2 : Fin 3) * 1024 + 1024
    rw [e2]; omega

/-! ## The result array -/

/-- After the region the result array holds, at (h, p, q), half h of the input's rows at (p, q). -/
theorem final0 (V : (c : Dev nD) → (b : Ref sig .tc) → Buf (Elt Ideal) ((c : Thread nD τ).loc b)) (c : Dev nD) :
    (dat0 (F := Ideal) V c).arrAt 1 cfg0.N
      = fun i => Cert.GramSpec.half (fun r k => V c main_arg0 (ValueIdx.ix2 r k)) (i 0) (i 1) (i 2) :=
  (dat0 (F := Ideal) V c).arrAt_eq_of_cover 1 (halves V c) (fun t hf => flushed0_eq V c t hf) cover0_1

end Cert.KernelIdeal.Hand

end
-- ==== Proof.Pay1.lean ====
/-
  The second kernel's stored value, read at an index, at the extended reals.

  For a block x of 512 rows and a square matrix t, the kernel forms u, the block with every row divided by its length
  max(sqrt(Σ_k row_k²), ε), and the plain product u·t into a zero accumulator. The row sums of squares are a lane sum
  over the second axis from the zero word; the column of lengths [512] → [512, 1] → [512, 1024] reads, at (p, a), the
  length of row p; the change of format to 16 bits is the identity at the extended reals; a cast to the same
  shape is the identity. So entry (p, q) is Σ_a u p a · t a q.
-/
import proofs.«167867_j90305982365717_2_alg».proof.Proof.Gen.KernelIdeal.Skeleton
import proofs.«167867_j90305982365717_2_alg».proof.Proof.Spec
import proofs.«167867_j90305982365717_2_alg».proof.Proof.LibDot
import proofs.«167867_j90305982365717_2_alg».proof.Proof.LibSumAxis
import proofs.«167867_j90305982365717_2_alg».proof.Proof.LibColumn

noncomputable section

open scoped BigOperators

namespace Cert.KernelIdeal.Pay

open Idealize.ShloMosaic Idealize.ShloMosaic.ValueIdx Cert.KernelIdeal Cert.KernelIdeal.Gen Cert.GramSpec

variable [Cert.KernelIdeal.Facts]

/-- The projected block at (p, q): Σ_a u p a · t a q, with u the block's unit rows. -/
theorem k1_pay1_apply (x0 : Vec Ideal S512x1024 .f32) (tw : Vec Ideal S1024x1024 .f32) (p : Fin 512) (q : Fin 1024) :
    k1_pay1 (F := Ideal) x0 tw (ix2 p q)
      = ∑ a : Fin 1024, unitE (fun k => x0 (ix2 p k)) a * tw (ix2 a q) := by
  unfold k1_pay1
  refine (Idealize.ShloMosaic.LibDot.matmul_zero_plain dot_S512x1024_S1024x1024_S512x1024_1_0_0_1_n_n rfl rfl rfl rfl rfl rfl none _ _ p q).trans ?_
  refine Finset.sum_congr rfl fun a _ => ?_
  refine congrArg₂ (· * ·) ?_ (congrFun (shapeCast_self tw _) (ix2 a q))
  show Ideal.div (x0 (ix2 p a)) _ = Ideal.div (x0 (ix2 p a)) (max (Ideal.sqrt (∑ k, x0 (ix2 p k) * x0 (ix2 p k))) eps)
  refine congrArg (Ideal.div (x0 (ix2 p a))) ?_
  refine (Cert.LibColumn.broadcastTo_a1_ab_apply _ _ p a).trans ?_
  refine congrArg (fun t => max (Ideal.sqrt t) eps) ?_
  refine (Cert.LibColumn.shapeCast_a_a1_apply _ _ p (0 : Fin 1)).trans ?_
  exact Cert.LibSumAxis.sum_second_axis _ _ _ _ p

end Cert.KernelIdeal.Pay

end
-- ==== Proof.IdealVal1.lean ====
/-
  The second kernel region's result array as one function of the two arrays the region reads.

  The region has 16 points. Point t loads rows 512·t … 512·t + 511 of x and the whole 1024 × 1024 matrix w, and stores
  over block t of the result the value whose entry (p, q) is Σ_a u p a · w a q, u the unit rows of the block. A block's
  coordinate in its array is always (block index) × (block size) + (coordinate inside the block); with the index maps
  decided once over the 16 points, entry (p, k) of the row block is entry (512·t + p, k) of x, the matrix block is the
  matrix, and entry (p, q) of the result's block is entry (512·t + p, q) of the result. A row's unit vector depends on
  that row only, so what point t writes back is block t of ONE function of the arrays: entry (i, j) is the unit vector
  of row i of x against column j of the matrix. Row r lies in the block of point r / 512, so the 16 blocks fill the
  result, which therefore ends holding that function.
-/
import proofs.«167867_j90305982365717_2_alg».proof.Proof.IdealReg1
import proofs.«167867_j90305982365717_2_alg».proof.Proof.Pay1
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- Entry (i, j) of the projected rows: the unit vector of row i of x against column j of tw. -/
def proj (x : S8192x1024.Idx → EReal) (tw : S1024x1024.Idx → EReal) : S8192x1024.Idx → EReal :=
  fun i => ∑ a : Fin 1024, Cert.GramSpec.unitE (fun k => x (ValueIdx.ix2 (i 0) k)) a * tw (ValueIdx.ix2 a (i 1))

/-- The two zero offsets of a whole-buffer access, as the constant function. -/
theorem offsets_zero : (![0, 0] : Fin 2 → Nat) = fun _ => 0 := funext fun a => by fin_cases a <;> rfl

/-- The printed index maps over the 16 points: the row blocks of the input and of the result are both block t of
    their arrays, in the one column block; the matrix is its one block. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- One entry of the value a point stores, from the two blocks it loads: when row p of the row block is row (i 0) of
    x and column q of the matrix block is column (i 1) of the matrix, entry (p, q) is entry i of the projected rows. -/
theorem point_entry (x0 : Vec Ideal S512x1024 .f32) (tw : Vec Ideal S1024x1024 .f32)
    (X : S8192x1024.Idx → EReal) (T : S1024x1024.Idx → EReal) (p : Fin 512) (q : Fin 1024) (i : S8192x1024.Idx)
    (hx : ∀ k : Fin 1024, x0 (ix2 p k) = X (ix2 (i 0) k))
    (ht : ∀ a : Fin 1024, tw (ix2 a q) = T (ix2 a (i 1))) :
    k1_pay1 (F := Ideal) x0 tw (ix2 p q) = proj X T i := by
  refine (Cert.KernelIdeal.Pay.k1_pay1_apply x0 tw p q).trans ?_
  unfold proj
  refine Finset.sum_congr rfl fun a _ => ?_
  rw [ht a]
  exact congrArg (fun row => Cert.GramSpec.unitE row a * T (ix2 a (i 1))) (funext hx)

/-- Row block t of x: its entry y is the array's entry at row 512·t + (y 0), column (y 1). -/
theorem rows_block_apply (c : Dev nD) (t : Fin cfg1.N) (y : S512x1024.Idx) (k : S8192x1024.Idx)
    (hk0 : (k 0).val = 512 * t.val + (y 0).val) (hk1 : (k 1).val = (y 1).val) :
    (iblk1 V c 0 t : Vec Ideal S512x1024 .f32) y = (V c main_arg0 : S8192x1024.Idx → EReal) k := by
  obtain ⟨e0, e1, -⟩ := index_maps t
  unfold iblk1
  rw [View.read_apply]
  show V c main_arg0 _ = V c main_arg0 _
  congr 1
  funext a
  apply Fin.ext
  match a with
  | ⟨0, _⟩ => show win1_0.index t 0 * 512 + 1 * (y 0).val = (k 0).val; rw [e0, hk0]; omega
  | ⟨1, _⟩ => show win1_0.index t 1 * 1024 + 1 * (y 1).val = (k 1).val; rw [e1, hk1]; omega

/-- The matrix's one block is the matrix: its entry y is the array's entry at the same row and column. -/
theorem matrix_block_apply (c : Dev nD) (t : Fin cfg1.N) (y : S1024x1024.Idx) (k : S1024x1024.Idx)
    (hk0 : (k 0).val = (y 0).val) (hk1 : (k 1).val = (y 1).val) :
    (iblk1 V c 1 t : Vec Ideal S1024x1024 .f32) y = (V c main_v6 : S1024x1024.Idx → EReal) k := by
  obtain ⟨-, -, e2, e3, -⟩ := index_maps t
  unfold iblk1
  rw [View.read_apply]
  show V c main_v6 _ = V c main_v6 _
  congr 1
  funext a
  apply Fin.ext
  match a with
  | ⟨0, _⟩ => show win1_1.index t 0 * 1024 + 1 * (y 0).val = (k 0).val; rw [e2, hk0]; omega
  | ⟨1, _⟩ => show win1_1.index t 1 * 1024 + 1 * (y 1).val = (k 1).val; rw [e3, hk1]; omega

/-- What point t stores, at entry y of its block, is the projected rows at the array index the result's block t puts y. -/
theorem point_value (c : Dev nD) (t : Fin cfg1.N) (y : S512x1024.Idx) :
    k1_pay1 (F := Ideal) (iblk1 V c 0 t) (iblk1 V c 1 t) y
      = proj (V c main_arg0) (V c main_v6) (((cfg1.win 2).blk t).view.emb y) := by
  obtain ⟨p, q, rfl⟩ : ∃ (p : Fin 512) (q : Fin 1024), y = ix2 p q := ⟨y 0, y 1, eq_ix2 y⟩
  obtain ⟨-, -, -, -, e4, e5⟩ := index_maps t
  refine point_entry _ _ _ _ p q _ (fun k => ?_) (fun a => ?_)
  · refine rows_block_apply V c t (ix2 p k) _ ?_ rfl
    show win1_2.index t 0 * 512 + 1 * p.val = 512 * t.val + p.val
    rw [e4]; omega
  · refine matrix_block_apply V c t (ix2 a q) _ rfl ?_
    show win1_2.index t 1 * 1024 + 1 * q.val = q.val
    rw [e5]; omega

/-- What point t writes back is block t of the projected rows of the arrays as the region finds them. -/
theorem flushed1_eq (c : Dev nD) (t : Fin cfg1.N) :
    (dat1 (F := Ideal) V c).flushed 2 t
      = ((cfg1.win 2).blk t).view.read (Elt Ideal) (proj (V c main_arg0) (V c main_v6)) := by
  show (cfg1.win 2).cut (grid1.coords t) ((dat1 V c).after 2 t) = _
  rw [after1_2]
  unfold out1_2
  rw [View.canon_unit_zero offsets_zero]
  simp only [View.ld_unit_zero (S := S512x1024) offsets_zero, View.ld_unit_zero (S := S1024x1024) offsets_zero]
  funext y
  exact point_value V c t y

/-- An index of the result is in point t's block iff each coordinate is in the block's range on its axis. -/
theorem mem_block1 (t : Fin cfg1.N) (i : S8192x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v7).slice (win1_2.rect t)).set ↔ _
  rw [View.set_slice_whole, Rect.mem_set_unit]
  exact Iff.rfl

/-- The 16 blocks of 512 rows fill the result: row r is in the block of point r / 512. -/
theorem cover1 (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have hN : grid1.N = 16 := N_1
  have ht : (i 0).val / 512 < grid1.N := by rw [hN]; omega
  obtain ⟨-, -, -, -, e4, e5⟩ := index_maps ⟨(i 0).val / 512, ht⟩
  refine ⟨⟨(i 0).val / 512, ht⟩, flush1_2 _, ?_⟩
  rw [mem_block1]
  intro a
  match a with
  | ⟨0, _⟩ =>
    show win1_2.index ⟨(i 0).val / 512, ht⟩ (0 : Fin 2) * 512 ≤ (i 0).val ∧ (i 0).val < win1_2.index ⟨(i 0).val / 512, ht⟩ (0 : Fin 2) * 512 + 512
    rw [e4]
    show (i 0).val / 512 * 512 ≤ (i 0).val ∧ (i 0).val < (i 0).val / 512 * 512 + 512
    omega
  | ⟨1, _⟩ =>
    show win1_2.index ⟨(i 0).val / 512, ht⟩ (1 : Fin 2) * 1024 ≤ (i 1).val ∧ (i 1).val < win1_2.index ⟨(i 0).val / 512, ht⟩ (1 : Fin 2) * 1024 + 1024
    rw [e5]
    omega

/-- The result array after the region: the projected rows of the two arrays the region read. -/
theorem final1 (c : Dev nD) :
    (dat1 (F := Ideal) V c).arrAt 2 cfg1.N = proj (V c main_arg0) (V c main_v6) :=
  (dat1 (F := Ideal) V c).arrAt_eq_of_cover 2 (proj (V c main_arg0) (V c main_v6)) (fun t _ => flushed1_eq V c t) cover1

end Cert.KernelIdeal.Hand

end
-- ==== Proof.IdealHost.lean ====
/-
  The six host operations between the two kernel regions, as one function.

  The first region leaves a [2, 1024, 1024] array holding one accumulated matrix per half of the rows. The host
  takes the two [1, 1024, 1024] slices, drops their unit axis, adds the two matrices, and multiplies the sum by the
  weight matrix. Entry (a, j) of the product is Σ_e (v[0, a, e] + v[1, a, e]) · w[e, j].
-/
import proofs.«167867_j90305982365717_2_alg».proof.Proof.Gen.KernelIdeal.Launch
import proofs.«167867_j90305982365717_2_alg».proof.Proof.LibDot
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-- The host stretch's last result from the first region's result v0 and the weight matrix w. -/
def hostTw (v0 : Vec F S2x1024x1024 .f32) (w : Vec F S1024x1024 .f32) : Vec F S1024x1024 .f32 :=
  Host.dotGeneral dot_S1024x1024_S1024x1024_S1024x1024_1_0_0_1_n_n none
    (addf
      (shapeCast S1024x1024 (extractStridedSlice S1x1024x1024 ![0, 0, 0] v0 slices_S2x1024x1024_S1x1024x1024_0_0_0) shapeCasts_S1x1024x1024_S1024x1024)
      (shapeCast S1024x1024 (extractStridedSlice S1x1024x1024 ![1, 0, 0] v0 slices_S2x1024x1024_S1x1024x1024_1_0_0) shapeCasts_S1x1024x1024_S1024x1024))
    w

/-- After the six operations, from any contents W of the buffers, the product's buffer holds that function of the
    first region's result and the weight matrix as W has them. -/
theorem host_v6 (W : Valuation τ sig (Elt F)) :
    StableHlo.after hostOps1 W (Proc.devRef .tc main_v6) = hostTw (W (Proc.devRef .tc main_v0)) (W (Proc.devRef .tc main_arg1)) := by
  after_results
  rfl

/-- Half h's slice with its unit axis dropped, at (a, e), is the array at (h, a, e). -/
theorem slice_drop_apply (v0 : Vec Ideal S2x1024x1024 .f32) (h : Fin 2) (off : Fin 3 → Nat) (hoff : off = ![h.val, 0, 0])
    (hs : S2x1024x1024.Slices off S1x1024x1024) (a e : Fin 1024) :
    shapeCast S1024x1024 (extractStridedSlice S1x1024x1024 off v0 hs) shapeCasts_S1x1024x1024_S1024x1024 (ix2 a e) = v0 (ix3 h a e) := by
  subst hoff
  refine (shapeCast_1ab_ab_apply (α := EReal) _ shapeCasts_S1x1024x1024_S1024x1024 a e).trans ?_
  exact extractStridedSlice_apply _ v0 hs _ (ix3 h a e) (fun x => by
    match x with
    | ⟨0, _⟩ => show h.val = h.val + 0; rfl
    | ⟨1, _⟩ => show a.val = 0 + a.val; omega
    | ⟨2, _⟩ => show e.val = 0 + e.val; omega)

/-- Entry (a, j) of the host stretch's product. -/
theorem hostTw_apply (v0 : Vec Ideal S2x1024x1024 .f32) (w : Vec Ideal S1024x1024 .f32) (a j : Fin 1024) :
    hostTw (F := Ideal) v0 w (ix2 a j) = ∑ e : Fin 1024, (v0 (ix3 (0 : Fin 2) a e) + v0 (ix3 (1 : Fin 2) a e)) * w (ix2 e j) := by
  unfold hostTw
  refine (Idealize.ShloMosaic.LibDot.dotGeneral_plain dot_S1024x1024_S1024x1024_S1024x1024_1_0_0_1_n_n rfl rfl rfl rfl rfl rfl none _ w a j).trans ?_
  refine Finset.sum_congr rfl fun e _ => ?_
  refine congrArg (· * w (ix2 e j)) ?_
  exact congrArg₂ (· + ·)
    (slice_drop_apply v0 0 ![0, 0, 0] rfl slices_S2x1024x1024_S1x1024x1024_0_0_0 a e)
    (slice_drop_apply v0 1 ![1, 0, 0] rfl slices_S2x1024x1024_S1x1024x1024_1_0_0 a e)

end Cert.KernelIdeal.Hand

end
-- ==== Proof.IdealValue.lean ====
/-
  The idealized kernel's result array, as the specification's function of the two arguments.

  The second region leaves in the result array, at (i, j), the unit vector of row i of x against column j of the
  matrix the host computed. That matrix is (h₀ + h₁)·w, where h₀ and h₁ are the two halves the first region
  accumulated, block by block, from zero; and h₀ + h₁ is uᵀ·x summed over all rows at once (only the order and
  grouping of a sum change). So the result is u·((uᵀ·x)·w), entry by entry — for any contents of the arguments.
-/
import proofs.«167867_j90305982365717_2_alg».proof.Proof.IdealRun
import proofs.«167867_j90305982365717_2_alg».proof.Proof.IdealVal0
import proofs.«167867_j90305982365717_2_alg».proof.Proof.IdealVal1
import proofs.«167867_j90305982365717_2_alg».proof.Proof.IdealHost
import proofs.«167867_j90305982365717_2_alg».proof.Proof.TileAlg

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.GramSpec

variable (m : (ℓ : Loc nD τ sig) → Buf (Elt Ideal) ℓ)

/-- The first argument as a matrix of rows. -/
abbrev argRows (c : Dev nD) : Fin 8192 → Fin 1024 → EReal := fun r k => m ((c : Thread nD τ).loc main_arg0) (ix2 r k)
/-- The second argument as a matrix. -/
abbrev argWeight (c : Dev nD) : Fin 1024 → Fin 1024 → EReal := fun e j => m ((c : Thread nD τ).loc main_arg1) (ix2 e j)

/-- The result both programs end with, in the arrangement that forms the row similarities first. -/
def specOut (c : Dev nD) : S8192x1024.Idx → EReal := fun i => simFirst (argRows m c) (argWeight m c) (i 0) (i 1)

/-- When the second region is entered the first argument is as launched: the first region only reads it and no host
    operation writes it. -/
theorem R2_main_arg0 (c : Dev nD) : R2 m c main_arg0 = m ((c : Thread nD τ).loc main_arg0) :=
  (B2_of_arg m c main_arg0 (.inl rfl)).trans
    ((B1_arr m c 0).trans (((dat0 (R0 m) c).arrAt_in 0 rfl _).trans (A_eq0 (R0 m) c 0)))

/-- The host's product as the second region finds it. -/
abbrev twOf (c : Dev nD) : S1024x1024.Idx → EReal := R2 m c main_v6

/-- When the second region is entered the host's product holds, at (a, j), Σ_e (uᵀ·x)(a, e) · w(e, j). -/
theorem R2_main_v6_apply (c : Dev nD) (a j : Fin 1024) :
    twOf m c (ix2 a j) = ∑ e : Fin 1024, gramE (argRows m c) a e * argWeight m c e j := by
  have hv6 : twOf m c = hostTw (B1 m c (Proc.devRef .tc main_v0)) (B1 m c (Proc.devRef .tc main_arg1)) := host_v6 (B1 m c)
  have hv0 : B1 m c (Proc.devRef .tc main_v0) = fun i => half (argRows m c) (i 0) (i 1) (i 2) :=
    (B1_arr m c 1).trans (final0 (R0 m) c)
  have hw : B1 m c (Proc.devRef .tc main_arg1) = m ((c : Thread nD τ).loc main_arg1) := B1_of_ne m c main_arg1 (by decide)
  rw [hv6, hostTw_apply, hv0, hw]
  exact Finset.sum_congr rfl fun e _ => congrArg (· * argWeight m c e j) (half_add_half (argRows m c) a e)

/-- THE KERNEL'S RESULT: after the run the result array holds u·((uᵀ·x)·w) of the arguments, entry by entry. -/
theorem result_eq (c : Dev nD) :
    (dat1 (F := Ideal) (R2 m) c).arrAt 2 cfg1.N = fun i => smallFirst (argRows m c) (argWeight m c) (i 0) (i 1) := by
  rw [final1 (R2 m) c]
  funext i
  obtain ⟨r, j, rfl⟩ : ∃ (r : Fin 8192) (j : Fin 1024), i = ix2 r j := ⟨i 0, i 1, eq_ix2 i⟩
  unfold proj smallFirst
  rw [R2_main_arg0 m c]
  exact Finset.sum_congr rfl fun a _ => congrArg (unitE (argRows m c r) a * ·) (R2_main_v6_apply m c a j)

end Cert.KernelIdeal.Hand

end
-- ==== Proof.RefSide.lean ====
/-
  The reference program read back: what its run leaves in the result array, as one function of the two argument arrays.

  The reference squares the entries, sums each row, takes the square root, floors it at ε and divides the row by it:
  its matrix u of unit rows. It then forms u·uᵀ (a transpose and a product), multiplies by x and then by w. Read at
  the entry (i, j), that is Σ_e (Σ_m (Σ_a u i a · u m a) · x m e) · w e j.
-/
import proofs.«167867_j90305982365717_2_alg».proof.Defs
import proofs.«167867_j90305982365717_2_alg».proof.Proof.Gen.ReferenceIdeal.Run
import proofs.«167867_j90305982365717_2_alg».proof.Proof.Gen.ReferenceIdeal.Read
import proofs.«167867_j90305982365717_2_alg».proof.Proof.Spec

noncomputable section

open scoped BigOperators

namespace Cert.RefSide

open Cert.ReferenceIdeal Cert.ReferenceIdeal.Read Idealize.ShloMosaic Idealize.ShloMosaic.ValueIdx Cert.GramSpec

/-- Entry (r, a) of the reference's matrix of unit rows is coordinate a of the unit vector of row r of x. -/
theorem unit_apply (x : (⟨S8192x1024, .f32⟩ : BufTy).Contents (Elt Ideal)) (r : Fin 8192) (a : Fin 1024) :
    val_main_v7 (F := Ideal) x (ix2 r a) = unitE (fun k => x (ix2 r k)) a := by
  have hidx : ∀ k : Fin 1024, idx_main_v1 (idx_main_v2 (idx_main_v6 (ix2 r a))) k = ix2 r k := fun k =>
    funext fun b => Fin.ext (by match b with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, hidx]
  unfold unitE rowLen eps
  simp only [Ideal.hostDivf_def, Ideal.maximumf_def, Ideal.hostUnary_sqrt_def, Ideal.mulf_def, Ideal.ofBits_def,
    Ideal.ofBits_zero_f32, zero_add]

/-- Entry (i, m) of the reference's n × n matrix is the inner product of the unit vectors of rows i and m. -/
theorem sim_apply (x : (⟨S8192x1024, .f32⟩ : BufTy).Contents (Elt Ideal)) (i m : Fin 8192) :
    val_main_v9 (F := Ideal) x (ix2 i m)
      = ∑ a : Fin 1024, unitE (fun k => x (ix2 i k)) a * unitE (fun k => x (ix2 m k)) a := by
  rw [val_main_v9_apply]
  refine Finset.sum_congr rfl fun a _ => ?_
  have hl : lidx_main_v9 (ix2 i m) a = ix2 i a :=
    funext fun b => Fin.ext (by match b with | ⟨0, _⟩ => rfl | ⟨1, _⟩ => rfl)
  have hr : idx_main_v8 (ridx_main_v9 (ix2 i m) a) = ix2 m a :=
    funext fun b => Fin.ext (by match b with | ⟨0, _⟩ => rfl | ⟨1, _⟩ => rfl)
  rw [val_main_v8_apply, hl, hr, unit_apply, unit_apply]

/-- Entry (i, e) of the similarity matrix applied to x. -/
theorem simx_apply (x : (⟨S8192x1024, .f32⟩ : BufTy).Contents (Elt Ideal)) (i : Fin 8192) (e : Fin 1024) :
    val_main_v10 (F := Ideal) x (ix2 i e)
      = ∑ m : Fin 8192, (∑ a : Fin 1024, unitE (fun k => x (ix2 i k)) a * unitE (fun k => x (ix2 m k)) a)
          * x (ix2 m e) := by
  rw [val_main_v10_apply]
  refine Finset.sum_congr rfl fun m _ => ?_
  have hl : lidx_main_v10 (ix2 i e) m = ix2 i m :=
    funext fun b => Fin.ext (by match b with | ⟨0, _⟩ => rfl | ⟨1, _⟩ => rfl)
  have hr : ridx_main_v10 (ix2 i e) m = ix2 m e :=
    funext fun b => Fin.ext (by match b with | ⟨0, _⟩ => rfl | ⟨1, _⟩ => rfl)
  rw [hl, hr, sim_apply]

/-- The reference's result, entry by entry, is the product with the n × n matrix of row similarities formed first. -/
theorem ref_is_simFirst (x : (⟨Cert.ReferenceIdeal.S8192x1024, .f32⟩ : BufTy).Contents (Elt Ideal))
    (w : (⟨Cert.ReferenceIdeal.S1024x1024, .f32⟩ : BufTy).Contents (Elt Ideal)) :
    Cert.ReferenceIdeal.Read.val_main_v11 (F := Ideal) x w
      = fun i => Cert.GramSpec.simFirst (fun r k => x (ValueIdx.ix2 r k)) (fun e j => w (ValueIdx.ix2 e j)) (i 0) (i 1) := by
  funext i
  obtain ⟨p, q, rfl⟩ : ∃ (p : Fin 8192) (q : Fin 1024), i = ix2 p q := ⟨i 0, i 1, eq_ix2 i⟩
  rw [val_main_v11_apply]
  unfold simFirst
  refine Finset.sum_congr rfl fun e _ => ?_
  have hl : lidx_main_v11 (ix2 p q) e = ix2 p e :=
    funext fun b => Fin.ext (by match b with | ⟨0, _⟩ => rfl | ⟨1, _⟩ => rfl)
  have hr : ridx_main_v11 (ix2 p q) e = ix2 e q :=
    funext fun b => Fin.ext (by match b with | ⟨0, _⟩ => rfl | ⟨1, _⟩ => rfl)
  rw [hl, hr, simx_apply]

end Cert.RefSide

end
-- ==== Proof.Algebra.lean ====
/-
  The two orders of multiplication agree on real entries.

  A row of real numbers has a real sum of squares, which is nonnegative, so its square root is a real number; the
  maximum with the positive real ε is a positive real r, and dividing a real by r is multiplying by the real 1/r. Hence
  every unit-vector coordinate is a real number. With u real, moving a factor across a sum is allowed, and
      Σ_e (Σ_m (Σ_a u i a · u m a) · x m e) · w e j
        = Σ_e (Σ_a u i a · (Σ_m u m a · x m e)) · w e j
        = Σ_a u i a · (Σ_e (Σ_m u m a · x m e) · w e j).
-/
import proofs.«167867_j90305982365717_2_alg».proof.Proof.Spec
import proofs.«167867_j90305982365717_2_alg».proof.Proof.LibGcnSum
import proofs.«167867_j90305982365717_2_alg».proof.Proof.LibMatAssoc

noncomputable section

open scoped BigOperators

namespace Cert.GramSpec

open Idealize.ShloMosaic GcnLib

/-- The length of a row of real numbers is a positive real number. -/
theorem isReal_rowLen {d : ℕ} (row : Fin d → EReal) (h : ∀ k, GcnLib.IsReal (row k)) :
    ∃ r : ℝ, 0 < r ∧ rowLen row = (r : EReal) := by
  choose rr hrr using h
  obtain ⟨e, he, hee⟩ := eps_real
  have hsum : (∑ k, row k * row k) = ((∑ k, rr k * rr k : ℝ) : EReal) := by
    rw [GcnLib.coe_finset_sum]
    exact Finset.sum_congr rfl fun k _ => by rw [hrr k, EReal.coe_mul]
  have hnn : ¬ (∑ k, rr k * rr k : ℝ) < 0 :=
    not_lt.mpr (Finset.sum_nonneg fun k _ => mul_self_nonneg (rr k))
  refine ⟨max (Real.sqrt (∑ k, rr k * rr k)) e, lt_max_of_lt_right he, ?_⟩
  unfold rowLen
  rw [hsum, Ideal.sqrt_coe, if_neg hnn, hee]
  exact (EReal.coe_strictMono.monotone.map_max).symm

/-- Every coordinate of the unit vector of a row of real numbers is a real number. -/
theorem isReal_unitE {d : ℕ} (row : Fin d → EReal) (h : ∀ k, GcnLib.IsReal (row k)) (a : Fin d) :
    GcnLib.IsReal (unitE row a) := by
  obtain ⟨r, hr, hlen⟩ := isReal_rowLen row h
  unfold unitE
  rw [hlen, Ideal.div_coe hr.ne']
  exact GcnLib.isReal_mul (h a) (GcnLib.isReal_coe _)

/-- Every entry of the matrix of feature co-occurrences of a real matrix is a real number. -/
theorem isReal_gramE {n d : ℕ} (x : Fin n → Fin d → EReal) (hx : ∀ i k, GcnLib.IsReal (x i k)) (a e : Fin d) :
    GcnLib.IsReal (gramE x a e) :=
  GcnLib.isReal_sum_mul Finset.univ _ _ (fun m => isReal_unitE (x m) (hx m) a) (fun m => hx m e)

/-- On real entries the two orders of multiplication give one value at every entry. -/
theorem smallFirst_eq_simFirst {n d : ℕ} (x : Fin n → Fin d → EReal) (w : Fin d → Fin d → EReal)
    (hx : ∀ i k, GcnLib.IsReal (x i k)) (hw : ∀ e j, GcnLib.IsReal (w e j)) (i : Fin n) (j : Fin d) :
    smallFirst x w i j = simFirst x w i j := by
  have hu : ∀ m a, GcnLib.IsReal (unitE (x m) a) := fun m a => isReal_unitE (x m) (hx m) a
  unfold smallFirst simFirst
  -- inner: the row of similarities applied to x is u i applied to the co-occurrence matrix
  have inner : ∀ e, (∑ m, (∑ a, unitE (x i) a * unitE (x m) a) * x m e)
      = ∑ a, unitE (x i) a * gramE x a e := fun e =>
    Cert.LibMatAssoc.sum_mul_sum_assoc Finset.univ Finset.univ (fun a => unitE (x i) a)
      (fun a m => unitE (x m) a) (fun m => x m e) (fun a => hu i a) (fun a m => hu m a) (fun m => hx m e)
  refine Eq.trans ?_ (Finset.sum_congr rfl fun e _ => congrArg (· * w e j) (inner e).symm)
  exact (Cert.LibMatAssoc.sum_mul_sum_assoc Finset.univ Finset.univ (fun a => unitE (x i) a)
    (fun a e => gramE x a e) (fun e => w e j) (fun a => hu i a) (fun a e => isReal_gramE x hx a e)
    (fun e => hw e j)).symm

end Cert.GramSpec

end
-- ==== Proof.LibFinite.lean ====
/-
  "Every entry is finite", as a printed precondition says it, read back.

  jnp.all(jnp.abs(x) < inf) prints as a reduction by "and", from the constant true, of the entrywise comparison of
  |x| with the f32 pattern of +∞ broadcast from a scalar. If the reduction came out true then every comparison did,
  and at the extended reals |x| = max(x, −x) < +∞ leaves x neither +∞ nor −∞: x is a real number.
-/
import Idealize.ShloMosaic.PureOps.Ideal
import Idealize.ShloMosaic.Lib.ReduceAll
import Idealize.ShloMosaic.Lib.ValueIdx
import proofs.«167867_j90305982365717_2_alg».proof.Proof.LibGcnSum

noncomputable section

namespace Cert.LibFinite

open Idealize.ShloMosaic GcnLib

/-- The scalar shape has one index. -/
instance subsingleton_scalarIdx : Subsingleton (⟨0, ![]⟩ : Shape).Idx := ⟨fun _ _ => funext fun d => d.elim0⟩

/-- The f32 pattern 0x7F800000 is +∞. -/
theorem ofBits_inf_f32 : Ideal.ofBits .f32 0x7F800000#32 = ⊤ := by simp [Ideal.ofBits, Ideal.ieee]

/-- If the comparison |x| < +∞ came out true, x is a real number. -/
theorem isReal_of_abs_lt_inf (x : EReal)
    (h : Ideal.cmp .olt (max x (-x)) (Ideal.ofBits .f32 0x7F800000#32) = 1#1) : IsReal x := by
  rw [ofBits_inf_f32] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- jnp.all(|x| < inf) is true: every entry of x is a real number. -/
theorem isReal_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
        (cmpf .olt (Host.absf x) (broadcastInDim s ![] hb (constant (F := Ideal) ⟨0, ![]⟩ .f32 0x7F800000#32)))
        init hr hu ValueIdx.ix0 = 1#1)
    (i : s.Idx) : IsReal (x i) :=
  isReal_of_abs_lt_inf (x i) (Host.reduce_andi_all _ init hr hu ValueIdx.ix0 e i)

end Cert.LibFinite

end
-- ==== Proof.Finite.lean ====
/-
  The printed precondition "both arguments are finite", read back: every entry of both arrays is a real number.

  The precondition is the conjunction of two reductions by "and", one per array, of the entrywise comparison of |x|
  with +∞. If the conjunction is true so is each reduction, and a true reduction makes every comparison true, which
  leaves the entry neither infinity.
-/
import proofs.«167867_j90305982365717_2_alg».proof.Pre_finite_inputs
import Idealize.ShloMosaic.Lib.Affine
import proofs.«167867_j90305982365717_2_alg».proof.Proof.LibGcnSum
import proofs.«167867_j90305982365717_2_alg».proof.Proof.LibFinite

noncomputable section

namespace Cert.Finite

open Idealize.ShloMosaic GcnLib

/-- If the printed finiteness precondition is true of x and w, every entry of x and of w is a real number. -/
theorem real_of_pre [Cert.Pre_finite_inputs.Facts] (x : FVec Ideal Cert.Pre_finite_inputs.S8192x1024 .f32)
    (w : FVec Ideal Cert.Pre_finite_inputs.S1024x1024 .f32)
    (h : Cert.Pre_finite_inputs.fn (F := Ideal) x w = fun _ => 1#1) :
    (∀ i, GcnLib.IsReal (x i)) ∧ (∀ i, GcnLib.IsReal (w i)) := by
  have h0 := congrFun h ValueIdx.ix0
  dsimp only [Cert.Pre_finite_inputs.fn, andi] at h0
  obtain ⟨hx, hw⟩ := IntOp.andi_eq_one.1 h0
  exact ⟨fun i => Cert.LibFinite.isReal_of_all_finite x _ _ _ _ hx i,
    fun i => Cert.LibFinite.isReal_of_all_finite w _ _ _ _ hw i⟩

end Cert.Finite

end
-- ==== Proof.lean ====
/-
  The certificate's five claims.

  Both kernel programs — the kernel as printed, read over machine words, and its idealization, read over the extended
  reals — run to the end, fault nowhere and leave their two arguments unchanged: each is two pipelined kernel regions
  around six host operations, and the run is assembled region by region (the first region carries an accumulator
  in a scratch buffer from grid point to grid point; the second keeps nothing). The reference, a straight line of
  host operations, runs likewise. The idealization rewrote no operation, so it preserves the kernel trivially.

  The value claim. With u the matrix of unit rows of x (each row divided by max(its length, ε)), the idealized kernel
  ends with u·((uᵀ·x)·w): it accumulates uᵀ·x over blocks of 1024 rows in two halves, the host adds the halves and
  multiplies by w, and the second region applies u. The reference ends with ((u·uᵀ)·x)·w. Entry by entry both are the
  sum over (a, m, e) of u(i,a)·u(m,a)·x(m,e)·w(e,j); moving a factor across a sum is valid on the extended reals when
  every entry is a real number, which the precondition — all inputs finite — provides: a finite row has a real length,
  floored at ε > 0, so its unit vector is real.
-/
import proofs.«167867_j90305982365717_2_alg».proof.Defs
import proofs.«167867_j90305982365717_2_alg».proof.Proof.Gen.Kernel
import proofs.«167867_j90305982365717_2_alg».proof.Proof.Gen.KernelIdeal
import proofs.«167867_j90305982365717_2_alg».proof.Proof.Gen.ReferenceIdeal
import proofs.«167867_j90305982365717_2_alg».proof.Proof.Gen.Pre_finite_inputs
import proofs.«167867_j90305982365717_2_alg».proof.Proof.Gen.ReferenceIdeal.Run
import proofs.«167867_j90305982365717_2_alg».proof.Proof.Gen.ReferenceIdeal.Read
import proofs.«167867_j90305982365717_2_alg».proof.Proof.BitsRun
import proofs.«167867_j90305982365717_2_alg».proof.Proof.IdealRun
import proofs.«167867_j90305982365717_2_alg».proof.Proof.IdealValue
import proofs.«167867_j90305982365717_2_alg».proof.Proof.RefSide
import proofs.«167867_j90305982365717_2_alg».proof.Proof.Algebra
import proofs.«167867_j90305982365717_2_alg».proof.Proof.Finite

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on finite arguments both idealized programs end with the same result array. -/
theorem algebraic : Cert.algebraic_KernelIdeal_ReferenceIdeal := by
  intro m ρ m' ρ' hpre hagree
  refine ⟨fun c => Cert.KernelIdeal.Hand.specOut m c, ?_, ?_⟩
  · refine (θ_run Cert.KernelIdeal.defs _ _).mono (fun _ h c => ⟨(h c).1.trans ?_, (h c).2.1, (h c).2.2⟩)
      (Cert.KernelIdeal.Hand.run_result m ρ)
    rw [Cert.KernelIdeal.Hand.result_eq m c]
    obtain ⟨hx, hw⟩ := Cert.Finite.real_of_pre _ _ (hpre c)
    funext i
    exact Cert.GramSpec.smallFirst_eq_simFirst _ _ (fun r k => hx _) (fun e j => hw _) (i 0) (i 1)
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v11_eq, Cert.RefSide.ref_is_simFirst, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
